-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x384 : Shape := ⟨3, ![1024, 256, 384]⟩
abbrev S64x384 : Shape := ⟨2, ![64, 384]⟩
abbrev S_ : Shape := ⟨0, ![]⟩

class Facts : Prop where
  bcast_S_S1024x256x384 : S_.BroadcastsInDim S1024x256x384 (![] : Fin 0 → Fin S1024x256x384.rank)
  reducesTo_S1024x256x384_S_d0_1_2 : S1024x256x384.ReducesTo [0, 1, 2] S_
  h_S_ : 0 < S_.numel
  bcast_S_S64x384 : S_.BroadcastsInDim S64x384 (![] : Fin 0 → Fin S64x384.rank)
  reducesTo_S64x384_S_d0_1 : S64x384.ReducesTo [0, 1] S_

variable [Facts]

def fn_part1 {F : FTy → Type} [FloatOps F] (main_v13 : IVec S_ 1) (main_v16 : IVec S64x384 1) : IVec S_ 1 :=
  let main_c_5 : IVec S_ 1 := constantI S_ 1 1#1
  let main_v17 : IVec S_ 1 := (fun x v => Host.reduce IntOp.andi x v reducesTo_S64x384_S_d0_1 h_S_) main_v16 main_c_5
  let main_v18 : IVec S_ 1 := andi main_v13 main_v17
  main_v18

def fn {F : FTy → Type} [FloatOps F] (main_arg0 : FVec F S1024x256x384 .f32) (main_arg1 : FVec F S64x384 .f32) (main_arg2 : FVec F S64x384 .f32) (main_arg3 : FVec F S64x384 .f32) : IVec S_ 1 :=
  let main_v0 : FVec F S1024x256x384 .f32 := Host.absf main_arg0
  let main_cst : FVec F S_ .f32 := constant S_ .f32 0x7F800000#32
  let main_v1 : FVec F S1024x256x384 .f32 := broadcastInDim S1024x256x384 ![] bcast_S_S1024x256x384 main_cst
  let main_v2 : IVec S1024x256x384 1 := cmpf .olt main_v0 main_v1
  let main_c : IVec S_ 1 := constantI S_ 1 1#1
  let main_v3 : IVec S_ 1 := (fun x v => Host.reduce IntOp.andi x v reducesTo_S1024x256x384_S_d0_1_2 h_S_) main_v2 main_c
  let main_v4 : FVec F S64x384 .f32 := Host.absf main_arg1
  let main_cst_0 : FVec F S_ .f32 := constant S_ .f32 0x7F800000#32
  let main_v5 : FVec F S64x384 .f32 := broadcastInDim S64x384 ![] bcast_S_S64x384 main_cst_0
  let main_v6 : IVec S64x384 1 := cmpf .olt main_v4 main_v5
  let main_c_1 : IVec S_ 1 := constantI S_ 1 1#1
  let main_v7 : IVec S_ 1 := (fun x v => Host.reduce IntOp.andi x v reducesTo_S64x384_S_d0_1 h_S_) main_v6 main_c_1
  let main_v8 : IVec S_ 1 := andi main_v3 main_v7
  let main_v9 : FVec F S64x384 .f32 := Host.absf main_arg2
  let main_cst_2 : FVec F S_ .f32 := constant S_ .f32 0x7F800000#32
  let main_v10 : FVec F S64x384 .f32 := broadcastInDim S64x384 ![] bcast_S_S64x384 main_cst_2
  let main_v11 : IVec S64x384 1 := cmpf .olt main_v9 main_v10
  let main_c_3 : IVec S_ 1 := constantI S_ 1 1#1
  let main_v12 : IVec S_ 1 := (fun x v => Host.reduce IntOp.andi x v reducesTo_S64x384_S_d0_1 h_S_) main_v11 main_c_3
  let main_v13 : IVec S_ 1 := andi main_v8 main_v12
  let main_v14 : FVec F S64x384 .f32 := Host.absf main_arg3
  let main_cst_4 : FVec F S_ .f32 := constant S_ .f32 0x7F800000#32
  let main_v15 : FVec F S64x384 .f32 := broadcastInDim S64x384 ![] bcast_S_S64x384 main_cst_4
  let main_v16 : IVec S64x384 1 := cmpf .olt main_v14 main_v15
  fn_part1 (F := F) main_v13 main_v16
-- ==== Kernel.lean ====
abbrev S1024x256x384 : Shape := ⟨3, ![1024, 256, 384]⟩
abbrev S64x384 : Shape := ⟨2, ![64, 384]⟩
abbrev S192x384 : Shape := ⟨2, ![192, 384]⟩
abbrev S384x192 : Shape := ⟨2, ![384, 192]⟩
abbrev S1024x256x64 : Shape := ⟨3, ![1024, 256, 64]⟩
abbrev S16x256x384 : Shape := ⟨3, ![16, 256, 384]⟩
abbrev S16x256x64 : Shape := ⟨3, ![16, 256, 64]⟩
abbrev S4096x384 : Shape := ⟨2, ![4096, 384]⟩
abbrev S4096x192 : Shape := ⟨2, ![4096, 192]⟩
abbrev S4096x64 : Shape := ⟨2, ![4096, 64]⟩
abbrev S256x256 : Shape := ⟨2, ![256, 256]⟩
abbrev S1x256x64 : Shape := ⟨3, ![1, 256, 64]⟩
abbrev S256x64 : Shape := ⟨2, ![256, 64]⟩
abbrev S64x256 : Shape := ⟨2, ![64, 256]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S1024x256x384, .f32⟩
  | .hbm, ⟨1, _⟩ => ⟨S64x384, .f32⟩
  | .hbm, ⟨2, _⟩ => ⟨S64x384, .f32⟩
  | .hbm, ⟨3, _⟩ => ⟨S64x384, .f32⟩
  | .hbm, ⟨4, _⟩ => ⟨S192x384, .f32⟩
  | .hbm, ⟨5, _⟩ => ⟨S384x192, .f32⟩
  | .hbm, ⟨6, _⟩ => ⟨S1024x256x64, .f32⟩
  | .local _ .vmem, ⟨0, _⟩ => ⟨S16x256x384, .f32⟩
  | .local _ .vmem, ⟨1, _⟩ => ⟨S16x256x384, .f32⟩
  | .local _ .vmem, ⟨2, _⟩ => ⟨S384x192, .f32⟩
  | .local _ .vmem, ⟨3, _⟩ => ⟨S16x256x64, .f32⟩
  | .local _ .vmem, ⟨4, _⟩ => ⟨S16x256x64, .f32⟩
  | .local _ .vmem, ⟨5, _⟩ => ⟨S16x256x64, .bf16⟩
  | .local _ .vmem, ⟨6, _⟩ => ⟨S16x256x64, .bf16⟩
  | .local _ .vmem, ⟨7, _⟩ => ⟨S16x256x64, .bf16⟩
  | _, _ => ⟨S1024x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v28 : BitVec 32 := Scalar.addi c0_i32 c16_i32
  let c1_i32 : BitVec 32 := 1#32
  ⟨c0_i32, v28, c1_i32⟩
def k0_off1 (k0_t1 : Fin k0_t1_loop.trips) : Fin 3 → Nat :=
  let c0_i32_15 : BitVec 32 := 0#32
  let c0_i32 : BitVec 32 := 0#32
  let c1_i32 : BitVec 32 := 1#32
  let arg7 : BitVec 32 := Scf.iv c0_i32 c1_i32 k0_t1
  let c1_i32_14 : BitVec 32 := 1#32
  let v29 : BitVec 32 := Scalar.muli arg7 c1_i32_14
  let v30 : BitVec 32 := Scalar.addi c0_i32_15 v29
  let v31 : Index := Scalar.indexCast v30
  let c0_16 : Index := 0#32
  let c0_17 : Index := 0#32
  ![v31.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S64x384_S64x384_S64x384_S192x384_d0 : Shape.Concatenates [S64x384, S64x384, S64x384] S192x384 0
  transposes_S192x384_S384x192_1_0 : S192x384.Transposes [1, 0] S384x192
  inb_S16x256x384_S16x256x384_0_0_0 : ∀ a, (![0, 0, 0] : Fin 3 → Nat) a + S16x256x384.size a ≤ S16x256x384.size a
  h_S16x256x384 : 0 < S16x256x384.numel
  bitsLt_bf16_f32 : FTy.bits .bf16 < FTy.bits .f32
  shapeCasts_S16x256x384_S4096x384 : S16x256x384.ShapeCasts S4096x384
  inb_S384x192_S384x192_0_0 : ∀ a, (![0, 0] : Fin 2 → Nat) a + S384x192.size a ≤ S384x192.size a
  h_S384x192 : 0 < S384x192.numel
  shapeCasts_S384x192_S384x192 : S384x192.ShapeCasts S384x192
  slices_S4096x192_o0_0_S4096x64 : S4096x192.Slices ![0, 0] S4096x64
  slices_S4096x192_o0_64_S4096x64 : S4096x192.Slices ![0, 64] S4096x64
  slices_S4096x192_o0_128_S4096x64 : S4096x192.Slices ![0, 128] S4096x64
  shapeCasts_S4096x64_S16x256x64 : S4096x64.ShapeCasts S16x256x64
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  packedbf16_S16x256x64_S16x256x64_0_0_0 : (Rect.unit (s := S16x256x64) ![0, 0, 0] S16x256x64.size inb_S16x256x64_S16x256x64_0_0_0).PackedRows (EltTy.packing .bf16)
  iota_S256x256_d0_w32 : S256x256.Iotas .tc 32 [0]
  iota_S256x256_d1_w32 : S256x256.Iotas .tc 32 [1]
  h_S1x256x64 : 0 < S1x256x64.numel
  shapeCasts_S1x256x64_S256x64 : S1x256x64.ShapeCasts S256x64
  transposes_S256x64_p1_0_S64x256 : S256x64.Transposes [1, 0] S64x256
  reduces_S256x256_S256 : S256x256.Reduces [1] S256
  shapeCasts_S256_S256x1 : S256.ShapeCasts S256x1
  broadcasts_S256x1_S256x256 : S256x1.Broadcasts S256x256
  shapeCasts_S256x64_S1x256x64 : S256x64.ShapeCasts S1x256x64
  dot_S4096x384_S384x192_S4096x192_1_0_0_1_n_n_wf : DotDims.WF S4096x384 S384x192 S4096x192 [1] [0] [0] [1] [] []
  dot_S256x64_S64x256_S256x256_1_0_0_1_n_n_wf : DotDims.WF S256x64 S64x256 S256x256 [1] [0] [0] [1] [] []
  dot_S256x256_S256x64_S256x64_1_0_0_1_n_n_wf : DotDims.WF S256x256 S256x64 S256x64 [1] [0] [0] [1] [] []
  hrank0 : 0 < grid0.rank
  k0_t1_ok : k0_t1_loop.OK
  k0_off1_inb : ∀ k0_t1 : Fin k0_t1_loop.trips, ∀ a, (k0_off1 k0_t1) a + S1x256x64.size a ≤ S16x256x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x384.size a ≤ S1024x256x384.size a
  hwx0_0 : ∀ i : grid0.Coords, EltTy.bits .f32 = 32 ∨ (Rect.block (s := S1024x256x384) S16x256x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x192.size a ≤ S384x192.size a
  hwx0_1 : ∀ i : grid0.Coords, EltTy.bits .f32 = 32 ∨ (Rect.block (s := S384x192) S384x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x64.size a ≤ S1024x256x64.size a
  hwx0_2 : ∀ i : grid0.Coords, EltTy.bits .f32 = 32 ∨ (Rect.block (s := S1024x256x64) S16x256x64.size (cc0_transform_2 i) (hinb0_2 i)).WholeWords (EltTy.packing .f32)

variable [Facts₀]

def dot_S4096x384_S384x192_S4096x192_1_0_0_1_n_n : DotDims S4096x384 S384x192 S4096x192 where
  lhsContracting := [1]
  rhsContracting := [0]
  lhsNonContracting := [0]
  rhsNonContracting := [1]
  lhsBatch := []
  rhsBatch := []
  wf := dot_S4096x384_S384x192_S4096x192_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S16x256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S384x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x256x384 : Shape := ⟨3, ![1024, 256, 384]⟩
abbrev S64x384 : Shape := ⟨2, ![64, 384]⟩
abbrev S1024x256x64 : Shape := ⟨3, ![1024, 256, 64]⟩
abbrev S1024x256x256 : Shape := ⟨3, ![1024, 256, 256]⟩
abbrev S_ : Shape := ⟨0, ![]⟩
abbrev S256x256 : Shape := ⟨2, ![256, 256]⟩
abbrev S1024x256 : Shape := ⟨2, ![1024, 256]⟩
abbrev S1024x256x1 : Shape := ⟨3, ![1024, 256, 1]⟩

abbrev nBuf : Space → Nat
  | .hbm => 42
  | .vmem => 0
  | .smem => 0
  | _ => 0

abbrev bufTy : (tb : Table) → Fin (tcTables nBuf tb) → BufTy
  | .hbm, ⟨0, _⟩ => ⟨S1024x256x384, .f32⟩
  | .hbm, ⟨1, _⟩ => ⟨S64x384, .f32⟩
  | .hbm, ⟨2, _⟩ => ⟨S64x384, .f32⟩
  | .hbm, ⟨3, _⟩ => ⟨S64x384, .f32⟩
  | .hbm, ⟨4, _⟩ => ⟨S1024x256x64, .f32⟩
  | .hbm, ⟨5, _⟩ => ⟨S1024x256x64, .f32⟩
  | .hbm, ⟨6, _⟩ => ⟨S1024x256x64, .f32⟩
  | .hbm, ⟨7, _⟩ => ⟨S1024x256x256, .f32⟩
  | .hbm, ⟨8, _⟩ => ⟨S_, .f32⟩
  | .hbm, ⟨9, _⟩ => ⟨S1024x256x256, .f32⟩
  | .hbm, ⟨10, _⟩ => ⟨S1024x256x256, .f32⟩
  | .hbm, ⟨11, _⟩ => ⟨S_, .i1⟩
  | .hbm, ⟨12, _⟩ => ⟨S256x256, .i1⟩
  | .hbm, ⟨13, _⟩ => ⟨S256x256, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S_, .i1⟩
  | .hbm, ⟨20, _⟩ => ⟨S256x256, .i1⟩
  | .hbm, ⟨21, _⟩ => ⟨S256x256, .i1⟩
  | .hbm, ⟨22, _⟩ => ⟨S_, .f32⟩
  | .hbm, ⟨23, _⟩ => ⟨S_, .f32⟩
  | .hbm, ⟨24, _⟩ => ⟨S1024x256x256, .i1⟩
  | .hbm, ⟨25, _⟩ => ⟨S1024x256x256, .f32⟩
  | .hbm, ⟨26, _⟩ => ⟨S1024x256x256, .f32⟩
  | .hbm, ⟨27, _⟩ => ⟨S_, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256x1, .f32⟩
  | .hbm, ⟨33, _⟩ => ⟨S1024x256x256, .f32⟩
  | .hbm, ⟨34, _⟩ => ⟨S1024x256x256, .f32⟩
  | .hbm, ⟨35, _⟩ => ⟨S1024x256x256, .f32⟩
  | .hbm, ⟨36, _⟩ => ⟨S_, .f32⟩
  | .hbm, ⟨37, _⟩ => ⟨S1024x256, .f32⟩
  | .hbm, ⟨38, _⟩ => ⟨S1024x256x1, .f32⟩
  | .hbm, ⟨39, _⟩ => ⟨S1024x256x256, .f32⟩
  | .hbm, ⟨40, _⟩ => ⟨S1024x256x256, .f32⟩
  | .hbm, ⟨41, _⟩ => ⟨S1024x256x64, .f32⟩
  | _, _ => ⟨S1024x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S1024x256x256 : S_.BroadcastsInDim S1024x256x256 (![] : Fin 0 → Fin S1024x256x256.rank)
  bcast_S_S256x256 : S_.BroadcastsInDim S256x256 (![] : Fin 0 → Fin S256x256.rank)
  bcast_S256x256_S1024x256x256_1_2 : S256x256.BroadcastsInDim S1024x256x256 (![1, 2] : Fin 2 → Fin S1024x256x256.rank)
  reducesTo_S1024x256x256_S1024x256_d2 : S1024x256x256.ReducesTo [2] S1024x256
  h_S_ : 0 < S_.numel
  bcast_S_S1024x256 : S_.BroadcastsInDim S1024x256 (![] : Fin 0 → Fin S1024x256.rank)
  bcast_S1024x256_S1024x256x1_0_1 : S1024x256.BroadcastsInDim S1024x256x1 (![0, 1] : Fin 2 → Fin S1024x256x1.rank)
  bcast_S1024x256x1_S1024x256x256_0_1_2 : S1024x256x1.BroadcastsInDim S1024x256x256 (![0, 1, 2] : Fin 3 → Fin S1024x256x256.rank)
  dot_S1024x256x384_S64x384_S1024x256x64_2_1_01_0_n_n_wf : DotDims.WF S1024x256x384 S64x384 S1024x256x64 [2] [1] [0, 1] [0] [] []
  dot_S1024x256x64_S1024x256x64_S1024x256x256_2_2_1_1_0_0_wf : DotDims.WF S1024x256x64 S1024x256x64 S1024x256x256 [2] [2] [1] [1] [0] [0]
  dot_S1024x256x256_S1024x256x64_S1024x256x64_2_1_1_2_0_0_wf : DotDims.WF S1024x256x256 S1024x256x64 S1024x256x64 [2] [1] [1] [2] [0] [0]

variable [Facts₀]

def dot_S1024x256x384_S64x384_S1024x256x64_2_1_01_0_n_n : DotDims S1024x256x384 S64x384 S1024x256x64 where
  lhsContracting := [2]
  rhsContracting := [1]
  lhsNonContracting := [0, 1]
  rhsNonContracting := [0]
  lhsBatch := []
  rhsBatch := []
  wf := dot_S1024x256x384_S64x384_S1024x256x64_2_1_01_0_n_n_wf
def dot_S1024x256x64_S1024x256x64_S1024x256x256_2_2_1_1_0_0 : DotDims S1024x256x64 S1024x256x64 S1024x256x256 where
  lhsContracting := [2]
  rhsContracting := [2]
  lhsNonContracting := [1]
  rhsNonContracting := [1]
  lhsBatch := [0]
  rhsBatch := [0]
  wf := dot_S1024x256x64_S1024x256x64_S1024x256x256_2_2_1_1_0_0_wf
def dot_S1024x256x256_S1024x256x64_S1024x256x64_2_1_1_2_0_0 : DotDims S1024x256x256 S1024x256x64 S1024x256x64 where
  lhsContracting := [2]
  rhsContracting := [1]
  lhsNonContracting := [1]
  rhsNonContracting := [2]
  lhsBatch := [0]
  rhsBatch := [0]
  wf := dot_S1024x256x256_S1024x256x64_S1024x256x64_2_1_1_2_0_0_wf

class Facts : Prop extends Facts₀ where

variable [Facts]
-- ==== Proof.BitsLaunched.lean ====
/-
  The program's @main up to its one kernel launch, and what the launch finds.

  @main first builds the fused weight matrix on the host — the three 64×384 weight matrices stacked (query, key, value:
  rows 0–63, 64–127, 128–191) and transposed to 384×192 — and then launches the attention kernel on the embedding
  array and that matrix.  Here: the contents of every buffer when the launch begins (`entryMem`: memory after the two
  host operations), that the four argument arrays are untouched by those operations, the block of each window's array
  that a grid point sees (`blockAt`), that an input window's staging buffer holds exactly that block when the body
  starts, and that a run ending in the pipeline library's frame post leaves the four argument arrays as they were.
-/
import proofs.«132341_j24850680774786_2_alg».proof.Proof.Gen.Kernel.Launch
import proofs.«132341_j24850680774786_2_alg».proof.Proof.Gen.Kernel.Skeleton
import proofs.«132341_j24850680774786_2_alg».proof.Proof.Gen.Kernel.Loops
import proofs.«132341_j24850680774786_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every TensorCore buffer of core `c` as the launch finds it: the initial memory after the stacking and the
    transposition. -/
abbrev entryMem (c : Dev nD) (b : Ref sig .tc) : Buf (Elt F) ((c : Thread nD τ).loc b) :=
  StableHlo.after hostOps0 (fun b => m (c, b)) b

/-- Neither host operation allocates anything. -/
theorem hostOps0_fresh : (hostOps0 : List (HloOp τ sig (Elt F))).Forall fun op => op.fresh = ∅ := by
  simp only [List.Forall]; repeat' constructor

/-- @main is the two host operations followed by the launch. -/
theorem main_upto_launch (𝒱₀ : Variants) :
    Pipeline.HMain (Ix := Unit) (Name := ℕ) (U := UR sig nD τ) (Lvl := ℕ) cfgs 0 defs₀ 𝒱₀ m (main (F := F)) (entryMem m) :=
  Pipeline.hmain_prefix cfgs 0 defs₀ 𝒱₀ m main hostOps0 hostOps0_sub hostOps0_fresh main_chain

/-- The host operations write only the stacked matrix and its transpose: an argument array is found as launched. -/
theorem entryMem_arg (c : Dev nD) (b : Ref sig .tc) (h4 : b ≠ main_v0) (h5 : b ≠ main_v1) :
    entryMem m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    exact ⟨StableHlo.devRef_ne_of_ne h4, StableHlo.devRef_ne_of_ne h5⟩))

theorem entryMem_arg0 (c : Dev nD) : entryMem m c main_arg0 = m ((c : Thread nD τ).loc main_arg0) :=
  entryMem_arg m c main_arg0 (by decide) (by decide)
theorem entryMem_arg1 (c : Dev nD) : entryMem m c main_arg1 = m ((c : Thread nD τ).loc main_arg1) :=
  entryMem_arg m c main_arg1 (by decide) (by decide)
theorem entryMem_arg2 (c : Dev nD) : entryMem m c main_arg2 = m ((c : Thread nD τ).loc main_arg2) :=
  entryMem_arg m c main_arg2 (by decide) (by decide)
theorem entryMem_arg3 (c : Dev nD) : entryMem m c main_arg3 = m ((c : Thread nD τ).loc main_arg3) :=
  entryMem_arg m c main_arg3 (by decide) (by decide)

/-- The block of window `w`'s array that grid point `t` sees, read off the array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entryMem m c (Pipeline.arrRef spec0 w))

/-- The embedding window's staging buffer holds its block whenever the body starts, for any proof data over the
    launch's arrays whose body leaves that buffer alone. -/
theorem embed_staged {c : Dev nD} (dat : Dat τ (Elt F) Unit ℕ (UR sig nD τ) ℕ cfg0 c)
    (hA : dat.A 0 = entryMem m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-- The weight window's staging buffer holds the whole fused matrix whenever the body starts (it is fetched at the
    first point only, and its block index never moves). -/
theorem weights_staged {c : Dev nD} (dat : Dat τ (Elt F) Unit ℕ (UR sig nD τ) ℕ cfg0 c)
    (hA : dat.A 1 = entryMem m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-- A run of @main that ends in the pipeline library's frame post, for proof data over the launch's arrays, leaves
    the four argument arrays as launched: the embedding array is staged and never written back; the weight
    matrices are no window's array and only read by the host operations. -/
theorem args_kept_of (dats : (p : Fin 1) → (c : Dev nD) → Dat τ (Elt F) Unit ℕ (UR sig nD τ) ℕ (cfgs p) c)
    (hA : ∀ c w, (dats 0 c).A w = entryMem m c (Pipeline.arrRef spec0 w))
    (h : θ_run defs (onTc (τ := τ) (main (F := F))) (s₀ m ρ) (Pipeline.FramePost cfgs dats 0 (entryMem m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (entryMem_arg0 m c))),
     ((h c).2 main_arg1 (Pipeline.mem_restRefs_of main_arg1 (by decide) (by decide))).trans (entryMem_arg1 m c),
     ((h c).2 main_arg2 (Pipeline.mem_restRefs_of main_arg2 (by decide) (by decide))).trans (entryMem_arg2 m c),
     ((h c).2 main_arg3 (Pipeline.mem_restRefs_of main_arg3 (by decide) (by decide))).trans (entryMem_arg3 m c)⟩) h

end Cert.Kernel.Launched

end
-- ==== Proof.BitsBody.lean ====
/-
  One grid point of the attention kernel, run symbolically.

  At a grid point the body reads the point's block of sixteen embedding matrices and the fused weight matrix, writes
  the three projections (query, key, value) into its three scratch buffers, and then, once per batch row, reads that
  row's three projections back and stores the row's attention output into the output window's staging buffer.  The
  run below goes through the body once, over symbolic contents, and through the sixteen trips by the loop's invariant
  (the stores of the trips before the current one); what it leaves in the output buffer is a list of sixteen stores,
  one batch row each, which tile the block.  Nothing is said here about what the stores hold: `blockOut` names the
  block they leave, and the value of that block is read elsewhere.
-/
import proofs.«132341_j24850680774786_2_alg».proof.Proof.BitsLaunched

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window: the view through which a block's contents are stated (which of the two
    buffers is used makes no difference once the stores cover the block). -/
abbrev outView : View sig .tc .vmem S16x256x64 .f32 := (Memref.whole cc0_stg2_0 : Memref sig .tc .vmem S16x256x64 .f32).view

/-- The staging buffers the pipeline hands the body at point `t`. -/
abbrev embBuf (t : Fin cfg0.N) : Memref sig .tc .vmem S16x256x384 .f32 := win0_0.stage (cfg0.slots t 0)
abbrev embBuf_whole (t : Fin cfg0.N) : (embBuf t).IsWhole := hstage0_0 ((cfg0.slots t 0).cast nbuf0_0)
abbrev wBuf (t : Fin cfg0.N) : Memref sig .tc .vmem S384x192 .f32 := win0_1.stage (cfg0.slots t 1)
abbrev wBuf_whole (t : Fin cfg0.N) : (wBuf t).IsWhole := hstage0_1 ((cfg0.slots t 1).cast nbuf0_1)
abbrev outBuf (t : Fin cfg0.N) : Memref sig .tc .vmem S16x256x64 .f32 := win0_2.stage (cfg0.slots t 2)
abbrev outBuf_whole (t : Fin cfg0.N) : (outBuf t).IsWhole := hstage0_2 ((cfg0.slots t 2).cast nbuf0_2)
/-- The three scratch buffers: the query, key and value projections of the point's sixteen batch rows. -/
abbrev qScr : Memref sig .tc .vmem S16x256x64 .bf16 := Memref.whole cc0_scratch0
abbrev kScr : Memref sig .tc .vmem S16x256x64 .bf16 := Memref.whole cc0_scratch1
abbrev vScr : Memref sig .tc .vmem S16x256x64 .bf16 := Memref.whole cc0_scratch2

/-- Between grid points the pipeline keeps, for the body, the three scratch buffers at whatever they hold and the
    generator register. -/
theorem between_points (c : Dev nD) :
    (Pipeline.ΦA spec0 c : sProp 𝕄)
      = iprop(iprop((∃ d, owns (c : Thread nD τ) qScr fullShare d) ∗ (∃ d, owns (c : Thread nD τ) kScr fullShare d) ∗ (∃ d, owns (c : Thread nD τ) vScr fullShare d)) ∗ (∃ r, prngReg c r)) := by
  unfold Pipeline.ΦA; rw [scopedRest0_eq]; simp only [qScr, kScr, vScr, owns_whole]; try rfl

set_option maxHeartbeats 4000000 in
/-- The body on any whole staging and scratch buffers — the two inputs at given contents, the output and the
    scratch at anything — runs to its end, the inputs kept, the scratch at something, and the output buffer with a
    list of stores written over what it held.  The list is found by the run itself. -/
noncomputable def bodyRun (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x64 .bf16) (harg4 : arg4.IsWhole) (arg5 : Memref sig .tc .vmem S16x256x64 .bf16) (harg5 : arg5.IsWhole) (arg6 : Memref sig .tc .vmem S16x256x64 .bf16) (harg6 : arg6.IsWhole)
    (x0 : Vec F S16x256x384 .f32) (x1 : Vec F S384x192 .f32) :
    { L : List (View.Piece (Elt F) S16x256x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__attn_kernel i arg1 harg1 arg2 harg2 arg3 harg3 arg4 harg4 arg5 harg5 arg6 harg6) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Launched

end
-- ==== Proof.BitsFrame.lean ====
/-
  The whole run of the program, from one grid point to all sixty-four.

  The sixteen stores a grid point makes tile the output block (one batch row each), so the block it leaves does not
  depend on what the staging buffer held before.  With that, the pipeline library's proof data for the launch is:
  the arrays as the launch finds them; after the body each input's staging buffer still at its block and the
  output's at `blockOut`; between points only the scratch buffers and the generator register, at anything.  The
  library's launch theorem then gives the run of @main: every weakly fair execution ends, without a fault, each
  window's array at what the write-backs compose and every other buffer as the launch found it — in particular the
  four argument arrays unchanged.
-/
import proofs.«132341_j24850680774786_2_alg».proof.Proof.BitsBody

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sixteen stores of a grid point, one batch row each, tile the output block: every index is under one. -/
theorem stores_cover (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x64 .bf16) (harg4 : arg4.IsWhole) (arg5 : Memref sig .tc .vmem S16x256x64 .bf16) (harg5 : arg5.IsWhole) (arg6 : Memref sig .tc .vmem S16x256x64 .bf16) (harg6 : arg6.IsWhole)
    (x0 : Vec F S16x256x384 .f32) (x1 : Vec F S384x192 .f32) (y : S16x256x64.Idx) :
    ∃ pc ∈ (bodyRun c i arg1 harg1 arg2 harg2 arg3 harg3 arg4 harg4 arg5 harg5 arg6 harg6 x0 x1).1, y ∈ pc.1.set :=
  View.cover_of_tiledL (bodyRun c i arg1 harg1 arg2 harg2 arg3 harg3 arg4 harg4 arg5 harg5 arg6 harg6 x0 x1).1 S1x256x64.size (by sl_kernel_rfl) y

/-- The output block a grid point leaves: its stores read back (over anything). -/
def blockOut (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x64 .bf16) (harg4 : arg4.IsWhole) (arg5 : Memref sig .tc .vmem S16x256x64 .bf16) (harg5 : arg5.IsWhole) (arg6 : Memref sig .tc .vmem S16x256x64 .bf16) (harg6 : arg6.IsWhole)
    (x0 : Vec F S16x256x384 .f32) (x1 : Vec F S384x192 .f32) : Vec F S16x256x64 .f32 :=
  outView.read (Elt F) (outView.writes (Elt F) outView.junk (bodyRun c i arg1 harg1 arg2 harg2 arg3 harg3 arg4 harg4 arg5 harg5 arg6 harg6 x0 x1).1)

/-- The output block point `t` leaves, from the point's own staging buffers and input blocks. -/
def outAt (c : Dev nD) (t : Fin cfg0.N) : Vec F S16x256x64 .f32 :=
  blockOut c (grid0.coords t) (embBuf t) (embBuf_whole t) (wBuf t) (wBuf_whole t) (outBuf t) (outBuf_whole t)
    qScr (Memref.isWhole_whole _) kScr (Memref.isWhole_whole _) vScr (Memref.isWhole_whole _) (blockAt m c 0 t) (blockAt m c 1 t)

/-- The launch's proof data on core `c`. -/
def launchData (_ : Fin 1) (c : Dev nD) : Dat τ (Elt F) Unit ℕ (UR sig nD τ) ℕ cfg0 c where
  A w := entryMem m c (Pipeline.arrRef spec0 w)
  after w t := match w with
    | ⟨0, _⟩ => blockAt m c 0 t
    | ⟨1, _⟩ => blockAt m c 1 t
    | ⟨2, _⟩ => outAt m c t
  Φ _ := Pipeline.ΦA spec0 c
  q _ := fullShare
  owed _ := 0

theorem launchData_A (c : Dev nD) (w : Fin cfg0.W) : (launchData m 0 c).A w = entryMem m c (Pipeline.arrRef spec0 w) := by
  dsimp only [launchData]

theorem after_embed (c : Dev nD) (t : Fin cfg0.N) : (launchData m 0 c).after 0 t = blockAt m c 0 t := by dsimp only [launchData]
theorem after_weights (c : Dev nD) (t : Fin cfg0.N) : (launchData m 0 c).after 1 t = blockAt m c 1 t := by dsimp only [launchData]
theorem after_out (c : Dev nD) (t : Fin cfg0.N) : (launchData m 0 c).after 2 t = outAt m c t := by dsimp only [launchData]

theorem before_embed (c : Dev nD) (t : Fin cfg0.N) (d) : (launchData m 0 c).before 0 t d = blockAt m c 0 t :=
  embed_staged m (launchData m 0 c) (launchData_A m c 0) (after_embed m c) t d
theorem before_weights (c : Dev nD) (t : Fin cfg0.N) (d) : (launchData m 0 c).before 1 t d = blockAt m c 1 t :=
  weights_staged m (launchData m 0 c) (launchData_A m c 1) (after_weights m c) t d

/-- What the pipeline hands the body at point `t`, -/
def handedIn (c : Dev nD) (t : Fin cfg0.N) : sProp 𝕄 :=
  iprop((launchData m 0 c).Φ t.castSucc ∗ (launchData m 0 c).owesAt () t.castSucc
    ∗ (∃ d, owns (c : Thread nD τ) (embBuf t) fullShare ((launchData m 0 c).before 0 t d))
    ∗ (∃ d, owns (c : Thread nD τ) (wBuf t) fullShare ((launchData m 0 c).before 1 t d))
    ∗ (∃ d, owns (c : Thread nD τ) (outBuf t) fullShare ((launchData m 0 c).before 2 t d)))

/-- and what it takes back. -/
def handedBack (c : Dev nD) (t : Fin cfg0.N) : sProp 𝕄 :=
  iprop((launchData m 0 c).Φ t.succ ∗ (launchData m 0 c).owesAt () t.succ
    ∗ owns (c : Thread nD τ) (embBuf t) fullShare ((launchData m 0 c).after 0 t)
    ∗ owns (c : Thread nD τ) (wBuf t) fullShare ((launchData m 0 c).after 1 t)
    ∗ owns (c : Thread nD τ) (outBuf t) fullShare ((launchData m 0 c).after 2 t))

/-- The body at any point: the inputs' buffers hold their blocks, the scratch comes from and returns to the
    between-points invariant, and the output buffer ends at `outAt` because the stores cover it. -/
theorem point_sound (c : Dev nD) (t : Fin cfg0.N) :
    handedIn m c t ⊢ wp frame (wpE (defs₀ (F := F)) Variants.none c none) Set.univ (bodyAt0 t) (fun _ => handedBack m c t) := by
  unfold handedIn handedBack bodyAt0
  simp only [before_embed, before_weights]
  rw [show (launchData m 0 c).Φ t.succ = (launchData m 0 c).Φ t.castSucc from rfl,
    show (launchData m 0 c).owesAt () t.succ = (launchData m 0 c).owesAt () t.castSucc from rfl,
    after_embed, after_weights, after_out]
  rw [show (launchData m 0 c).Φ t.castSucc = Pipeline.ΦA spec0 c from rfl, between_points]
  unfold outAt
  unfold blockOut
  iintro ⟨⟨⟨HS0, HS1, HS2⟩, Hg⟩, Ho, ⟨%d0, H0⟩, ⟨%d1, H1⟩, ⟨%d2, H2⟩⟩
  iapply ((bodyRun c (grid0.coords t) _ _ _ _ _ _ _ _ _ _ _ _ (blockAt m c 0 t) (blockAt m c 1 t)).2 Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, ⟨%e2, H2⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  unfold owns; iexists _; isplitr
  swap; · iexact H2
  ipureintro; exact View.read_writes_of_cover _ _ _ _ _ (stores_cover c _ _ _ _ _ _ _ _ _ _ _ _ _ _ _)

theorem body_obligation (c : Dev nD) : BodyObligation (launchData (F := F) m 0 c) (defs₀ (F := F)) Variants.none () Set.univ := fun t => by
  rw [bigSep_W0, bigSep_W0]
  exact point_sound m c t

set_option backward.isDefEq.respectTransparency.types false in
/-- Every weakly fair execution of @main ends, faultless, in the pipeline library's frame post for `launchData`. -/
theorem run_main : θ_run defs (onTc (τ := τ) (main (F := F))) (s₀ m ρ) (Pipeline.FramePost cfgs (launchData m) 0 (entryMem m)) :=
  Pipeline.θ_run_frame cfgs (launchData m) (0 : Fin 1) launch0 defs₀ Variants.none m ρ main
    (hbody := fun c => (body_obligation m c).loose) (hshare := fun c => (launchData m 0 c).share_full fun _ => rfl)
    (howed := fun _ _ => rfl) (V := entryMem m) (hmain := main_upto_launch m Variants.none) (hA := launchData_A m) (hΦ := fun _ _ => rfl)

/-- The program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_kept_of m ρ (launchData m) (launchData_A m) (run_main m ρ)

end Cert.Kernel.Launched

end
-- ==== Proof.IdealLaunched.lean ====
/-
  The program's @main up to its one kernel launch, and what the launch finds.

  @main first builds the fused weight matrix on the host — the three 64×384 weight matrices stacked (query, key, value:
  rows 0–63, 64–127, 128–191) and transposed to 384×192 — and then launches the attention kernel on the embedding
  array and that matrix.  Here: the contents of every buffer when the launch begins (`entryMem`: memory after the two
  host operations), that the four argument arrays are untouched by those operations, the block of each window's array
  that a grid point sees (`blockAt`), that an input window's staging buffer holds exactly that block when the body
  starts, and that a run ending in the pipeline library's frame post leaves the four argument arrays as they were.
-/
import proofs.«132341_j24850680774786_2_alg».proof.Proof.Gen.KernelIdeal.Launch
import proofs.«132341_j24850680774786_2_alg».proof.Proof.Gen.KernelIdeal.Skeleton
import proofs.«132341_j24850680774786_2_alg».proof.Proof.Gen.KernelIdeal.Loops
import proofs.«132341_j24850680774786_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every TensorCore buffer of core `c` as the launch finds it: the initial memory after the stacking and the
    transposition. -/
abbrev entryMem (c : Dev nD) (b : Ref sig .tc) : Buf (Elt F) ((c : Thread nD τ).loc b) :=
  StableHlo.after hostOps0 (fun b => m (c, b)) b

/-- Neither host operation allocates anything. -/
theorem hostOps0_fresh : (hostOps0 : List (HloOp τ sig (Elt F))).Forall fun op => op.fresh = ∅ := by
  simp only [List.Forall]; repeat' constructor

/-- @main is the two host operations followed by the launch. -/
theorem main_upto_launch (𝒱₀ : Variants) :
    Pipeline.HMain (Ix := Unit) (Name := ℕ) (U := UR sig nD τ) (Lvl := ℕ) cfgs 0 defs₀ 𝒱₀ m (main (F := F)) (entryMem m) :=
  Pipeline.hmain_prefix cfgs 0 defs₀ 𝒱₀ m main hostOps0 hostOps0_sub hostOps0_fresh main_chain

/-- The host operations write only the stacked matrix and its transpose: an argument array is found as launched. -/
theorem entryMem_arg (c : Dev nD) (b : Ref sig .tc) (h4 : b ≠ main_v0) (h5 : b ≠ main_v1) :
    entryMem m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    exact ⟨StableHlo.devRef_ne_of_ne h4, StableHlo.devRef_ne_of_ne h5⟩))

theorem entryMem_arg0 (c : Dev nD) : entryMem m c main_arg0 = m ((c : Thread nD τ).loc main_arg0) :=
  entryMem_arg m c main_arg0 (by decide) (by decide)
theorem entryMem_arg1 (c : Dev nD) : entryMem m c main_arg1 = m ((c : Thread nD τ).loc main_arg1) :=
  entryMem_arg m c main_arg1 (by decide) (by decide)
theorem entryMem_arg2 (c : Dev nD) : entryMem m c main_arg2 = m ((c : Thread nD τ).loc main_arg2) :=
  entryMem_arg m c main_arg2 (by decide) (by decide)
theorem entryMem_arg3 (c : Dev nD) : entryMem m c main_arg3 = m ((c : Thread nD τ).loc main_arg3) :=
  entryMem_arg m c main_arg3 (by decide) (by decide)

/-- The block of window `w`'s array that grid point `t` sees, read off the array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entryMem m c (Pipeline.arrRef spec0 w))

/-- The embedding window's staging buffer holds its block whenever the body starts, for any proof data over the
    launch's arrays whose body leaves that buffer alone. -/
theorem embed_staged {c : Dev nD} (dat : Dat τ (Elt F) Unit ℕ (UR sig nD τ) ℕ cfg0 c)
    (hA : dat.A 0 = entryMem m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-- The weight window's staging buffer holds the whole fused matrix whenever the body starts (it is fetched at the
    first point only, and its block index never moves). -/
theorem weights_staged {c : Dev nD} (dat : Dat τ (Elt F) Unit ℕ (UR sig nD τ) ℕ cfg0 c)
    (hA : dat.A 1 = entryMem m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-- A run of @main that ends in the pipeline library's frame post, for proof data over the launch's arrays, leaves
    the four argument arrays as launched: the embedding array is staged and never written back; the weight
    matrices are no window's array and only read by the host operations. -/
theorem args_kept_of (dats : (p : Fin 1) → (c : Dev nD) → Dat τ (Elt F) Unit ℕ (UR sig nD τ) ℕ (cfgs p) c)
    (hA : ∀ c w, (dats 0 c).A w = entryMem m c (Pipeline.arrRef spec0 w))
    (h : θ_run defs (onTc (τ := τ) (main (F := F))) (s₀ m ρ) (Pipeline.FramePost cfgs dats 0 (entryMem m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (entryMem_arg0 m c))),
     ((h c).2 main_arg1 (Pipeline.mem_restRefs_of main_arg1 (by decide) (by decide))).trans (entryMem_arg1 m c),
     ((h c).2 main_arg2 (Pipeline.mem_restRefs_of main_arg2 (by decide) (by decide))).trans (entryMem_arg2 m c),
     ((h c).2 main_arg3 (Pipeline.mem_restRefs_of main_arg3 (by decide) (by decide))).trans (entryMem_arg3 m c)⟩) h

end Cert.KernelIdeal.Launched

end
-- ==== Proof.IdealBody.lean ====
/-
  One grid point of the attention kernel, run symbolically.

  At a grid point the body reads the point's block of sixteen embedding matrices and the fused weight matrix, writes
  the three projections (query, key, value) into its three scratch buffers, and then, once per batch row, reads that
  row's three projections back and stores the row's attention output into the output window's staging buffer.  The
  run below goes through the body once, over symbolic contents, and through the sixteen trips by the loop's invariant
  (the stores of the trips before the current one); what it leaves in the output buffer is a list of sixteen stores,
  one batch row each, which tile the block.  Nothing is said here about what the stores hold: `blockOut` names the
  block they leave, and the value of that block is read elsewhere.
-/
import proofs.«132341_j24850680774786_2_alg».proof.Proof.IdealLaunched

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of the output window: the view through which a block's contents are stated (which of the two
    buffers is used makes no difference once the stores cover the block). -/
abbrev outView : View sig .tc .vmem S16x256x64 .f32 := (Memref.whole cc0_stg2_0 : Memref sig .tc .vmem S16x256x64 .f32).view

/-- The staging buffers the pipeline hands the body at point `t`. -/
abbrev embBuf (t : Fin cfg0.N) : Memref sig .tc .vmem S16x256x384 .f32 := win0_0.stage (cfg0.slots t 0)
abbrev embBuf_whole (t : Fin cfg0.N) : (embBuf t).IsWhole := hstage0_0 ((cfg0.slots t 0).cast nbuf0_0)
abbrev wBuf (t : Fin cfg0.N) : Memref sig .tc .vmem S384x192 .f32 := win0_1.stage (cfg0.slots t 1)
abbrev wBuf_whole (t : Fin cfg0.N) : (wBuf t).IsWhole := hstage0_1 ((cfg0.slots t 1).cast nbuf0_1)
abbrev outBuf (t : Fin cfg0.N) : Memref sig .tc .vmem S16x256x64 .f32 := win0_2.stage (cfg0.slots t 2)
abbrev outBuf_whole (t : Fin cfg0.N) : (outBuf t).IsWhole := hstage0_2 ((cfg0.slots t 2).cast nbuf0_2)
/-- The three scratch buffers: the query, key and value projections of the point's sixteen batch rows. -/
abbrev qScr : Memref sig .tc .vmem S16x256x64 .bf16 := Memref.whole cc0_scratch0
abbrev kScr : Memref sig .tc .vmem S16x256x64 .bf16 := Memref.whole cc0_scratch1
abbrev vScr : Memref sig .tc .vmem S16x256x64 .bf16 := Memref.whole cc0_scratch2

/-- Between grid points the pipeline keeps, for the body, the three scratch buffers at whatever they hold and the
    generator register. -/
theorem between_points (c : Dev nD) :
    (Pipeline.ΦA spec0 c : sProp 𝕄)
      = iprop(iprop((∃ d, owns (c : Thread nD τ) qScr fullShare d) ∗ (∃ d, owns (c : Thread nD τ) kScr fullShare d) ∗ (∃ d, owns (c : Thread nD τ) vScr fullShare d)) ∗ (∃ r, prngReg c r)) := by
  unfold Pipeline.ΦA; rw [scopedRest0_eq]; simp only [qScr, kScr, vScr, owns_whole]; try rfl

set_option maxHeartbeats 4000000 in
/-- The body on any whole staging and scratch buffers — the two inputs at given contents, the output and the
    scratch at anything — runs to its end, the inputs kept, the scratch at something, and the output buffer with a
    list of stores written over what it held.  The list is found by the run itself. -/
noncomputable def bodyRun (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x64 .bf16) (harg4 : arg4.IsWhole) (arg5 : Memref sig .tc .vmem S16x256x64 .bf16) (harg5 : arg5.IsWhole) (arg6 : Memref sig .tc .vmem S16x256x64 .bf16) (harg6 : arg6.IsWhole)
    (x0 : Vec F S16x256x384 .f32) (x1 : Vec F S384x192 .f32) :
    { L : List (View.Piece (Elt F) S16x256x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__attn_kernel i arg1 harg1 arg2 harg2 arg3 harg3 arg4 harg4 arg5 harg5 arg6 harg6) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Launched

end
-- ==== Proof.IdealFrame.lean ====
/-
  The whole run of the program, from one grid point to all sixty-four.

  The sixteen stores a grid point makes tile the output block (one batch row each), so the block it leaves does not
  depend on what the staging buffer held before.  With that, the pipeline library's proof data for the launch is:
  the arrays as the launch finds them; after the body each input's staging buffer still at its block and the
  output's at `blockOut`; between points only the scratch buffers and the generator register, at anything.  The
  library's launch theorem then gives the run of @main: every weakly fair execution ends, without a fault, each
  window's array at what the write-backs compose and every other buffer as the launch found it — in particular the
  four argument arrays unchanged.
-/
import proofs.«132341_j24850680774786_2_alg».proof.Proof.IdealBody

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The sixteen stores of a grid point, one batch row each, tile the output block: every index is under one. -/
theorem stores_cover (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x64 .bf16) (harg4 : arg4.IsWhole) (arg5 : Memref sig .tc .vmem S16x256x64 .bf16) (harg5 : arg5.IsWhole) (arg6 : Memref sig .tc .vmem S16x256x64 .bf16) (harg6 : arg6.IsWhole)
    (x0 : Vec F S16x256x384 .f32) (x1 : Vec F S384x192 .f32) (y : S16x256x64.Idx) :
    ∃ pc ∈ (bodyRun c i arg1 harg1 arg2 harg2 arg3 harg3 arg4 harg4 arg5 harg5 arg6 harg6 x0 x1).1, y ∈ pc.1.set :=
  View.cover_of_tiledL (bodyRun c i arg1 harg1 arg2 harg2 arg3 harg3 arg4 harg4 arg5 harg5 arg6 harg6 x0 x1).1 S1x256x64.size (by sl_kernel_rfl) y

/-- The output block a grid point leaves: its stores read back (over anything). -/
def blockOut (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x64 .bf16) (harg4 : arg4.IsWhole) (arg5 : Memref sig .tc .vmem S16x256x64 .bf16) (harg5 : arg5.IsWhole) (arg6 : Memref sig .tc .vmem S16x256x64 .bf16) (harg6 : arg6.IsWhole)
    (x0 : Vec F S16x256x384 .f32) (x1 : Vec F S384x192 .f32) : Vec F S16x256x64 .f32 :=
  outView.read (Elt F) (outView.writes (Elt F) outView.junk (bodyRun c i arg1 harg1 arg2 harg2 arg3 harg3 arg4 harg4 arg5 harg5 arg6 harg6 x0 x1).1)

/-- The output block point `t` leaves, from the point's own staging buffers and input blocks. -/
def outAt (c : Dev nD) (t : Fin cfg0.N) : Vec F S16x256x64 .f32 :=
  blockOut c (grid0.coords t) (embBuf t) (embBuf_whole t) (wBuf t) (wBuf_whole t) (outBuf t) (outBuf_whole t)
    qScr (Memref.isWhole_whole _) kScr (Memref.isWhole_whole _) vScr (Memref.isWhole_whole _) (blockAt m c 0 t) (blockAt m c 1 t)

/-- The launch's proof data on core `c`. -/
def launchData (_ : Fin 1) (c : Dev nD) : Dat τ (Elt F) Unit ℕ (UR sig nD τ) ℕ cfg0 c where
  A w := entryMem m c (Pipeline.arrRef spec0 w)
  after w t := match w with
    | ⟨0, _⟩ => blockAt m c 0 t
    | ⟨1, _⟩ => blockAt m c 1 t
    | ⟨2, _⟩ => outAt m c t
  Φ _ := Pipeline.ΦA spec0 c
  q _ := fullShare
  owed _ := 0

theorem launchData_A (c : Dev nD) (w : Fin cfg0.W) : (launchData m 0 c).A w = entryMem m c (Pipeline.arrRef spec0 w) := by
  dsimp only [launchData]

theorem after_embed (c : Dev nD) (t : Fin cfg0.N) : (launchData m 0 c).after 0 t = blockAt m c 0 t := by dsimp only [launchData]
theorem after_weights (c : Dev nD) (t : Fin cfg0.N) : (launchData m 0 c).after 1 t = blockAt m c 1 t := by dsimp only [launchData]
theorem after_out (c : Dev nD) (t : Fin cfg0.N) : (launchData m 0 c).after 2 t = outAt m c t := by dsimp only [launchData]

theorem before_embed (c : Dev nD) (t : Fin cfg0.N) (d) : (launchData m 0 c).before 0 t d = blockAt m c 0 t :=
  embed_staged m (launchData m 0 c) (launchData_A m c 0) (after_embed m c) t d
theorem before_weights (c : Dev nD) (t : Fin cfg0.N) (d) : (launchData m 0 c).before 1 t d = blockAt m c 1 t :=
  weights_staged m (launchData m 0 c) (launchData_A m c 1) (after_weights m c) t d

/-- What the pipeline hands the body at point `t`, -/
def handedIn (c : Dev nD) (t : Fin cfg0.N) : sProp 𝕄 :=
  iprop((launchData m 0 c).Φ t.castSucc ∗ (launchData m 0 c).owesAt () t.castSucc
    ∗ (∃ d, owns (c : Thread nD τ) (embBuf t) fullShare ((launchData m 0 c).before 0 t d))
    ∗ (∃ d, owns (c : Thread nD τ) (wBuf t) fullShare ((launchData m 0 c).before 1 t d))
    ∗ (∃ d, owns (c : Thread nD τ) (outBuf t) fullShare ((launchData m 0 c).before 2 t d)))

/-- and what it takes back. -/
def handedBack (c : Dev nD) (t : Fin cfg0.N) : sProp 𝕄 :=
  iprop((launchData m 0 c).Φ t.succ ∗ (launchData m 0 c).owesAt () t.succ
    ∗ owns (c : Thread nD τ) (embBuf t) fullShare ((launchData m 0 c).after 0 t)
    ∗ owns (c : Thread nD τ) (wBuf t) fullShare ((launchData m 0 c).after 1 t)
    ∗ owns (c : Thread nD τ) (outBuf t) fullShare ((launchData m 0 c).after 2 t))

/-- The body at any point: the inputs' buffers hold their blocks, the scratch comes from and returns to the
    between-points invariant, and the output buffer ends at `outAt` because the stores cover it. -/
theorem point_sound (c : Dev nD) (t : Fin cfg0.N) :
    handedIn m c t ⊢ wp frame (wpE (defs₀ (F := F)) Variants.none c none) Set.univ (bodyAt0 t) (fun _ => handedBack m c t) := by
  unfold handedIn handedBack bodyAt0
  simp only [before_embed, before_weights]
  rw [show (launchData m 0 c).Φ t.succ = (launchData m 0 c).Φ t.castSucc from rfl,
    show (launchData m 0 c).owesAt () t.succ = (launchData m 0 c).owesAt () t.castSucc from rfl,
    after_embed, after_weights, after_out]
  rw [show (launchData m 0 c).Φ t.castSucc = Pipeline.ΦA spec0 c from rfl, between_points]
  unfold outAt
  unfold blockOut
  iintro ⟨⟨⟨HS0, HS1, HS2⟩, Hg⟩, Ho, ⟨%d0, H0⟩, ⟨%d1, H1⟩, ⟨%d2, H2⟩⟩
  iapply ((bodyRun c (grid0.coords t) _ _ _ _ _ _ _ _ _ _ _ _ (blockAt m c 0 t) (blockAt m c 1 t)).2 Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, ⟨%e2, H2⟩, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  unfold owns; iexists _; isplitr
  swap; · iexact H2
  ipureintro; exact View.read_writes_of_cover _ _ _ _ _ (stores_cover c _ _ _ _ _ _ _ _ _ _ _ _ _ _ _)

theorem body_obligation (c : Dev nD) : BodyObligation (launchData (F := F) m 0 c) (defs₀ (F := F)) Variants.none () Set.univ := fun t => by
  rw [bigSep_W0, bigSep_W0]
  exact point_sound m c t

set_option backward.isDefEq.respectTransparency.types false in
/-- Every weakly fair execution of @main ends, faultless, in the pipeline library's frame post for `launchData`. -/
theorem run_main : θ_run defs (onTc (τ := τ) (main (F := F))) (s₀ m ρ) (Pipeline.FramePost cfgs (launchData m) 0 (entryMem m)) :=
  Pipeline.θ_run_frame cfgs (launchData m) (0 : Fin 1) launch0 defs₀ Variants.none m ρ main
    (hbody := fun c => (body_obligation m c).loose) (hshare := fun c => (launchData m 0 c).share_full fun _ => rfl)
    (howed := fun _ _ => rfl) (V := entryMem m) (hmain := main_upto_launch m Variants.none) (hA := launchData_A m) (hΦ := fun _ _ => rfl)

/-- The program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_kept_of m ρ (launchData m) (launchData_A m) (run_main m ρ)

end Cert.KernelIdeal.Launched

end
-- ==== Proof.IdealBlock.lean ====
/-
  The output block of one grid point, as a function of the point's two input blocks.

  The body writes the three projections of the point's sixteen batch rows into its scratch buffers, and trip `b` of
  its loop reads row `b` of each back and stores that row's result.  So the block the sixteen stores leave is, at
  index (b, r, h), the trip payload of row `b` of the three projections at (r, h) — `rowsOut` below — and the
  projections are the three projection payloads of the input blocks.  Each store is a tile of that one function, and
  together the stores cover the block.
-/
import proofs.«132341_j24850680774786_2_alg».proof.Proof.IdealFrame
import Idealize.ShloMosaic.Lib.Pipeline.Value
import Idealize.ShloMosaic.Lib.ValueIdx

set_option maxRecDepth 16384

noncomputable section

namespace Cert.KernelIdeal.Launched

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Named F]

/-- Batch row `b` of a block of sixteen 256 × 64 matrices, as a block of one. -/
def rowOf (P : Vec F S16x256x64 .bf16) (b : Fin 16) : Vec F S1x256x64 .bf16 := fun y => P (ix3 b (y 1) (y 2))

/-- The block the loop leaves: at (b, r, h), the trip payload of row `b` of the three projections, at (r, h). -/
def rowsOut (Q K V : Vec F S16x256x64 .bf16) : Vec F S16x256x64 .f32 := fun y =>
  k0_pay5 (rowOf Q (y 0)) (rowOf K (y 0)) (rowOf V (y 0)) (ix3 (0 : Fin 1) (y 1) (y 2))

theorem zeros3 : (![0, 0, 0] : Fin 3 → ℕ) = fun _ => 0 := by
  funext a; match a with | ⟨0, _⟩ => rfl | ⟨1, _⟩ => rfl | ⟨2, _⟩ => rfl
theorem zeros2 : (![0, 0] : Fin 2 → ℕ) = fun _ => 0 := by
  funext a; match a with | ⟨0, _⟩ => rfl | ⟨1, _⟩ => rfl

/-- A one-row rectangle at rows `off 0`, all columns: its element `y` is element (row, y 1, y 2) of the block, the row
    being that of any of its elements. -/
theorem row_rect_emb (off : Fin 3 → ℕ) (inb : ∀ a, off a + S1x256x64.size a ≤ S16x256x64.size a) (h1 : off 1 = 0) (h2 : off 2 = 0)
    (x y : (Rect.unit (s := S16x256x64) off S1x256x64.size inb).shape.Idx) :
    (Rect.unit (s := S16x256x64) off S1x256x64.size inb).emb y
      = ix3 ((Rect.unit (s := S16x256x64) off S1x256x64.size inb).emb x 0 : Fin 16) (y 1 : Fin 256) (y 2 : Fin 64) := by
  funext a
  match a with
  | ⟨0, _⟩ =>
    apply Fin.ext
    show off 0 + 1 * (y 0).val = off 0 + 1 * (x 0).val
    have := (y 0).isLt; have := (x 0).isLt
    have e : (Rect.unit (s := S16x256x64) off S1x256x64.size inb).shape.size 0 = 1 := rfl
    omega
  | ⟨1, _⟩ =>
    apply Fin.ext
    show off 1 + 1 * (y 1).val = (y 1).val
    omega
  | ⟨2, _⟩ =>
    apply Fin.ext
    show off 2 + 1 * (y 2).val = (y 2).val
    omega

/-- The trip payload of three one-row loads is the tile of `rowsOut` at that row. -/
theorem row_tile (Q K V : Vec F S16x256x64 .bf16) (off : Fin 3 → ℕ) (inb : ∀ a, off a + S1x256x64.size a ≤ S16x256x64.size a)
    (h1 : off 1 = 0) (h2 : off 2 = 0) (x : (Rect.unit (s := S16x256x64) off S1x256x64.size inb).shape.Idx) :
    k0_pay5 (F := F) (View.ld Q (Rect.unit (s := S16x256x64) off S1x256x64.size inb)) (View.ld K (Rect.unit (s := S16x256x64) off S1x256x64.size inb))
        (View.ld V (Rect.unit (s := S16x256x64) off S1x256x64.size inb)) x
      = rowsOut Q K V ((Rect.unit (s := S16x256x64) off S1x256x64.size inb).emb x) := by
  unfold rowsOut
  have hQ : View.ld Q (Rect.unit (s := S16x256x64) off S1x256x64.size inb) = rowOf Q ((Rect.unit (s := S16x256x64) off S1x256x64.size inb).emb x 0) :=
    funext fun y => congrArg Q (row_rect_emb off inb h1 h2 x y)
  have hK : View.ld K (Rect.unit (s := S16x256x64) off S1x256x64.size inb) = rowOf K ((Rect.unit (s := S16x256x64) off S1x256x64.size inb).emb x 0) :=
    funext fun y => congrArg K (row_rect_emb off inb h1 h2 x y)
  have hV : View.ld V (Rect.unit (s := S16x256x64) off S1x256x64.size inb) = rowOf V ((Rect.unit (s := S16x256x64) off S1x256x64.size inb).emb x 0) :=
    funext fun y => congrArg V (row_rect_emb off inb h1 h2 x y)
  rw [hQ, hK, hV]
  refine congrArg _ ?_
  funext a
  match a with
  | ⟨0, _⟩ => apply Fin.ext; have := (x 0).isLt; have e : (Rect.unit (s := S16x256x64) off S1x256x64.size inb).shape.size 0 = 1 := rfl; show (x 0).val = 0; omega
  | ⟨1, _⟩ => apply Fin.ext; show (x 1).val = off 1 + 1 * (x 1).val; omega
  | ⟨2, _⟩ => apply Fin.ext; show (x 2).val = off 2 + 1 * (x 2).val; omega

/-- Trip `k` stores one tile of `rowsOut` of whatever the three scratch buffers hold. -/
theorem trip_tile (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x64 .bf16) (harg4 : arg4.IsWhole) (arg5 : Memref sig .tc .vmem S16x256x64 .bf16) (harg5 : arg5.IsWhole) (arg6 : Memref sig .tc .vmem S16x256x64 .bf16) (harg6 : arg6.IsWhole)
    (X4 : BufTy.Contents (Elt F) arg4.view.ty) (X5 : BufTy.Contents (Elt F) arg5.view.ty) (X6 : BufTy.Contents (Elt F) arg6.view.ty)
    (k : Fin k0_t1_loop.trips) :
    ∀ p ∈ tripL_k0_t1 (F := F) Variants.none c none i arg1 harg1 arg2 harg2 arg3 harg3 arg4 harg4 arg5 harg5 arg6 harg6 X4 X5 X6 k, ∀ x : p.1.shape.Idx,
      p.2 x = rowsOut (arg4.view.read (Elt F) X4) (arg5.view.read (Elt F) X5) (arg6.view.read (Elt F) X6) (p.1.emb x) := by
  unfold tripL_k0_t1 trip_k0_t1
  dsimp only
  intro p hp
  obtain rfl := List.mem_singleton.mp hp
  intro x
  exact row_tile (arg4.view.read (Elt F) X4) (arg5.view.read (Elt F) X5) (arg6.view.read (Elt F) X6) (k0_off1 k) _ rfl rfl x

/-- So does every trip before the `n`-th. -/
theorem trips_tiles (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x64 .bf16) (harg4 : arg4.IsWhole) (arg5 : Memref sig .tc .vmem S16x256x64 .bf16) (harg5 : arg5.IsWhole) (arg6 : Memref sig .tc .vmem S16x256x64 .bf16) (harg6 : arg6.IsWhole)
    (X4 : BufTy.Contents (Elt F) arg4.view.ty) (X5 : BufTy.Contents (Elt F) arg5.view.ty) (X6 : BufTy.Contents (Elt F) arg6.view.ty) :
    ∀ n : ℕ, ∀ p ∈ pb_k0_t1 (F := F) Variants.none c none i arg1 harg1 arg2 harg2 arg3 harg3 arg4 harg4 arg5 harg5 arg6 harg6 X4 X5 X6 n, ∀ x : p.1.shape.Idx,
      p.2 x = rowsOut (arg4.view.read (Elt F) X4) (arg5.view.read (Elt F) X5) (arg6.view.read (Elt F) X6) (p.1.emb x)
  | 0 => by rw [pb_k0_t1.eq_1]; intro p hp; exact absurd hp List.not_mem_nil
  | n + 1 => by
    rw [pb_k0_t1.eq_2]; unfold pb_k0_t1Step
    split
    · intro p hp
      rcases List.mem_append.mp hp with h | h
      · exact trip_tile c i arg1 harg1 arg2 harg2 arg3 harg3 arg4 harg4 arg5 harg5 arg6 harg6 X4 X5 X6 _ p h
      · exact trips_tiles c i arg1 harg1 arg2 harg2 arg3 harg3 arg4 harg4 arg5 harg5 arg6 harg6 X4 X5 X6 n p h
    · exact trips_tiles c i arg1 harg1 arg2 harg2 arg3 harg3 arg4 harg4 arg5 harg5 arg6 harg6 X4 X5 X6 n

/-- What the query scratch buffer holds when the loop starts: the query projection of the two input blocks. -/
theorem scratch_query (c : Dev nD) (arg1 : Memref sig .tc .vmem S16x256x384 .f32) (harg1 : arg1.IsWhole) (arg2 : Memref sig .tc .vmem S384x192 .f32) (harg2 : arg2.IsWhole)
    (arg4 : Memref sig .tc .vmem S16x256x64 .bf16) (x0 : Vec F S16x256x384 .f32) (x1 : Vec F S384x192 .f32) :
    arg4.view.read (Elt F) (arg4.view.writes (Elt F) arg4.view.junk (bodyRun.sl.HS0_1 c arg1 harg1 arg2 harg2 x0 x1)) = k0_pay2 x0 x1 := by
  rw [View.read_writes_junk_eq_canon]
  sl_unfold_words
  rw [View.canon_unit_zero zeros3]
  simp only [View.readAt_eq_ld, harg1.read_unread, harg2.read_unread, View.ld_unit_zero (S := S16x256x384) zeros3, View.ld_unit_zero (S := S384x192) zeros2]

theorem scratch_key (c : Dev nD) (arg1 : Memref sig .tc .vmem S16x256x384 .f32) (harg1 : arg1.IsWhole) (arg2 : Memref sig .tc .vmem S384x192 .f32) (harg2 : arg2.IsWhole)
    (arg5 : Memref sig .tc .vmem S16x256x64 .bf16) (x0 : Vec F S16x256x384 .f32) (x1 : Vec F S384x192 .f32) :
    arg5.view.read (Elt F) (arg5.view.writes (Elt F) arg5.view.junk (bodyRun.sl.HS1_1 c arg1 harg1 arg2 harg2 x0 x1)) = k0_pay3 x0 x1 := by
  rw [View.read_writes_junk_eq_canon]
  sl_unfold_words
  rw [View.canon_unit_zero zeros3]
  simp only [View.readAt_eq_ld, harg1.read_unread, harg2.read_unread, View.ld_unit_zero (S := S16x256x384) zeros3, View.ld_unit_zero (S := S384x192) zeros2]

theorem scratch_value (c : Dev nD) (arg1 : Memref sig .tc .vmem S16x256x384 .f32) (harg1 : arg1.IsWhole) (arg2 : Memref sig .tc .vmem S384x192 .f32) (harg2 : arg2.IsWhole)
    (arg6 : Memref sig .tc .vmem S16x256x64 .bf16) (x0 : Vec F S16x256x384 .f32) (x1 : Vec F S384x192 .f32) :
    arg6.view.read (Elt F) (arg6.view.writes (Elt F) arg6.view.junk (bodyRun.sl.HS2_1 c arg1 harg1 arg2 harg2 x0 x1)) = k0_pay4 x0 x1 := by
  rw [View.read_writes_junk_eq_canon]
  sl_unfold_words
  rw [View.canon_unit_zero zeros3]
  simp only [View.readAt_eq_ld, harg1.read_unread, harg2.read_unread, View.ld_unit_zero (S := S16x256x384) zeros3, View.ld_unit_zero (S := S384x192) zeros2]

/-- The output block of a grid point is `rowsOut` of the three projections of its input blocks. -/
theorem blockOut_eq (c : Dev nD) (i : grid0.Coords) (arg1 : Memref sig .tc .vmem S16x256x384 .f32) (harg1 : arg1.IsWhole) (arg2 : Memref sig .tc .vmem S384x192 .f32) (harg2 : arg2.IsWhole) (arg3 : Memref sig .tc .vmem S16x256x64 .f32) (harg3 : arg3.IsWhole) (arg4 : Memref sig .tc .vmem S16x256x64 .bf16) (harg4 : arg4.IsWhole) (arg5 : Memref sig .tc .vmem S16x256x64 .bf16) (harg5 : arg5.IsWhole) (arg6 : Memref sig .tc .vmem S16x256x64 .bf16) (harg6 : arg6.IsWhole)
    (x0 : Vec F S16x256x384 .f32) (x1 : Vec F S384x192 .f32) :
    blockOut c i arg1 harg1 arg2 harg2 arg3 harg3 arg4 harg4 arg5 harg5 arg6 harg6 x0 x1 = rowsOut (k0_pay2 x0 x1) (k0_pay3 x0 x1) (k0_pay4 x0 x1) := by
  funext y
  unfold blockOut
  rw [View.read_writes_junk_eq_canon]
  refine (View.canon_apply_of_pieces (rowsOut (k0_pay2 x0 x1) (k0_pay3 x0 x1) (k0_pay4 x0 x1)) _ ?_ y (stores_cover c i arg1 harg1 arg2 harg2 arg3 harg3 arg4 harg4 arg5 harg5 arg6 harg6 x0 x1 y))
  unfold bodyRun
  dsimp only
  rw [← scratch_query c arg1 harg1 arg2 harg2 arg4 x0 x1, ← scratch_key c arg1 harg1 arg2 harg2 arg5 x0 x1, ← scratch_value c arg1 harg1 arg2 harg2 arg6 x0 x1]
  exact trips_tiles c i arg1 harg1 arg2 harg2 arg3 harg3 arg4 harg4 arg5 harg5 arg6 harg6 _ _ _ _

end Cert.KernelIdeal.Launched

end
-- ==== Proof.IdealArray.lean ====
/-
  From the sixty-four output blocks to the whole result array.

  Grid point `t` sees batch rows 16·t … 16·t + 15 of the embedding array and the whole fused weight matrix, and
  writes its output block back to rows 16·t … 16·t + 15 of the result array.  The blocks tile the array, so after the
  run the array is one function of the embedding array and the fused weights as the launch finds them: at (n, r, h),
  the trip payload of batch row `n`'s three projections — `arrayOut`.
-/
import proofs.«132341_j24850680774786_2_alg».proof.Proof.IdealBlock

set_option maxRecDepth 16384

noncomputable section

namespace Cert.KernelIdeal.Launched

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F] [Named F]

variable (m : (ℓ : Loc nD τ sig) → Buf (Elt F) ℓ) (ρ : Dev nD → PrngReg)

/-- Batch rows 16·q … 16·q + 15 of the embedding array. -/
def embRows (E : S1024x256x384.Idx → Elt F .f32) (q : Fin 64) : Vec F S16x256x384 .f32 := fun y =>
  E (ix3 (⟨16 * q.val + (y 0).val, by have := (y 0).isLt; have e : S16x256x384.size 0 = 16 := rfl; have := q.isLt; omega⟩ : Fin 1024) (y 1 : Fin 256) (y 2 : Fin 384))

/-- The result array as one function of the embedding array and the fused weights. -/
def arrayOut (E : S1024x256x384.Idx → Elt F .f32) (W : S384x192.Idx → Elt F .f32) : S1024x256x64.Idx → Elt F .f32 := fun i =>
  rowsOut (k0_pay2 (embRows E ⟨(i 0).val / 16, by have := (i 0).isLt; have e : S1024x256x64.size 0 = 1024 := rfl; omega⟩) W)
    (k0_pay3 (embRows E ⟨(i 0).val / 16, by have := (i 0).isLt; have e : S1024x256x64.size 0 = 1024 := rfl; omega⟩) W)
    (k0_pay4 (embRows E ⟨(i 0).val / 16, by have := (i 0).isLt; have e : S1024x256x64.size 0 = 1024 := rfl; omega⟩) W)
    (ix3 (⟨(i 0).val % 16, Nat.mod_lt _ (by decide)⟩ : Fin 16) (i 1 : Fin 256) (i 2 : Fin 64))

/-- The three windows' block indices at grid point `t`: batch-row block `t` of the embedding and result arrays, the
    one block of the weights. -/
theorem block_indices : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- `arrayOut` at batch row 16·q + b. -/
theorem arrayOut_at (E : S1024x256x384.Idx → Elt F .f32) (W : S384x192.Idx → Elt F .f32) (q : Fin 64) (b : Fin 16) (r : Fin 256) (h : Fin 64)
    (i : S1024x256x64.Idx) (h0 : (i 0).val = 16 * q.val + b.val) (h1 : (i 1).val = r.val) (h2 : (i 2).val = h.val) :
    arrayOut E W i = rowsOut (k0_pay2 (embRows E q) W) (k0_pay3 (embRows E q) W) (k0_pay4 (embRows E q) W) (ix3 b r h) := by
  unfold arrayOut
  have hQ : ∀ pf, (⟨(i 0).val / 16, pf⟩ : Fin 64) = q := fun pf => Fin.ext (by show (i 0).val / 16 = q.val; have := b.isLt; omega)
  have hB : ∀ pf, (⟨(i 0).val % 16, pf⟩ : Fin 16) = b := fun pf => Fin.ext (by show (i 0).val % 16 = b.val; have := b.isLt; omega)
  have hR : (i 1 : Fin 256) = r := Fin.ext h1
  have hH : (i 2 : Fin 64) = h := Fin.ext h2
  rw [hQ, hB, hR, hH]

/-- Grid point `t`'s embedding block is batch rows 16·t … 16·t + 15 of the embedding array as the launch finds it. -/
theorem embed_block (c : Dev nD) (t : Fin cfg0.N) :
    blockAt m c 0 t = embRows (entryMem m c main_arg0) ⟨t.val, by have := t.isLt; have e : cfg0.N = 64 := N_0; omega⟩ := by
  obtain ⟨e0, e1, e2, -⟩ := block_indices t
  funext y
  show entryMem m c main_arg0 (((cfg0.win 0).blk t).view.emb y) = entryMem m c main_arg0 _
  refine congrArg _ ?_
  funext a; apply Fin.ext
  match a with
  | ⟨0, _⟩ => show win0_0.index t (0 : Fin 3) * 16 + 1 * (y 0).val = 16 * t.val + (y 0).val; omega
  | ⟨1, _⟩ => show win0_0.index t (1 : Fin 3) * 256 + 1 * (y 1).val = (y 1).val; omega
  | ⟨2, _⟩ => show win0_0.index t (2 : Fin 3) * 384 + 1 * (y 2).val = (y 2).val; omega

/-- Its weight block is the whole fused weight matrix as the launch finds it. -/
theorem weights_block (c : Dev nD) (t : Fin cfg0.N) : blockAt m c 1 t = entryMem m c main_v1 := by
  obtain ⟨-, -, -, e3, e4, -⟩ := block_indices t
  funext y
  show entryMem m c main_v1 (((cfg0.win 1).blk t).view.emb y) = entryMem m c main_v1 y
  refine congrArg _ ?_
  funext a; apply Fin.ext
  match a with
  | ⟨0, _⟩ => show win0_1.index t (0 : Fin 2) * 384 + 1 * (y 0).val = (y 0).val; omega
  | ⟨1, _⟩ => show win0_1.index t (1 : Fin 2) * 192 + 1 * (y 1).val = (y 1).val; omega

/-- What point `t` writes back is block `t` of `arrayOut`. -/
theorem flushed_out (c : Dev nD) (t : Fin cfg0.N) :
    (launchData m 0 c).flushed 2 t
      = ((cfg0.win 2).blk t).view.read (Elt F) (arrayOut (entryMem m c main_arg0) (entryMem m c main_v1)) := by
  show (cfg0.win 2).cut (grid0.coords t) ((launchData m 0 c).after 2 t) = _
  rw [after_out]
  unfold outAt
  rw [blockOut_eq, embed_block, weights_block]
  obtain ⟨-, -, -, -, -, e5, e6, e7⟩ := block_indices t
  funext j
  show rowsOut _ _ _ j = arrayOut _ _ (((cfg0.win 2).blk t).view.emb j)
  rw [arrayOut_at _ _ ⟨t.val, by have := t.isLt; have e : cfg0.N = 64 := N_0; omega⟩ (j 0) (j 1) (j 2) _
    (by show win0_2.index t (0 : Fin 3) * 16 + 1 * (j 0).val = 16 * t.val + (j 0).val; omega)
    (by show win0_2.index t (1 : Fin 3) * 256 + 1 * (j 1).val = (j 1).val; omega)
    (by show win0_2.index t (2 : Fin 3) * 64 + 1 * (j 2).val = (j 2).val; omega)]
  exact congrArg _ (eq_ix3 j)

/-- Every index of the result array is in the block of the grid point of its batch-row block. -/
theorem blocks_cover (c : Dev nD) (i : S1024x256x64.Idx) :
    ∃ t : Fin cfg0.N, (cfg0.win 2).flush t = true ∧ i ∈ ((cfg0.win 2).blk t).view.set := by
  have hi0 : (i 0).val < 1024 := (i 0).isLt
  have hi1 : (i 1).val < 256 := (i 1).isLt
  have hi2 : (i 2).val < 64 := (i 2).isLt
  have hN : grid0.N = 64 := N_0
  obtain ⟨t, ht⟩ : ∃ t : Fin cfg0.N, t.val = (i 0).val / 16 := ⟨⟨(i 0).val / 16, by show (i 0).val / 16 < grid0.N; omega⟩, rfl⟩
  obtain ⟨-, -, -, -, -, e5, e6, e7⟩ := block_indices t
  refine ⟨t, flush0_2 t, ?_⟩
  show i ∈ ((View.whole main_v2).slice (win0_2.rect t)).set
  rw [View.set_slice_whole, Rect.mem_set_unit]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 256 ≤ (i 1).val ∧ (i 1).val < win0_2.index t (1 : Fin 3) * 256 + 256; omega
  | ⟨2, _⟩ => show win0_2.index t (2 : Fin 3) * 64 ≤ (i 2).val ∧ (i 2).val < win0_2.index t (2 : Fin 3) * 64 + 64; omega

/-- The fused weight matrix the launch finds: the query, key and value weight matrices stacked, transposed. -/
theorem fused_weights_found (c : Dev nD) :
    (entryMem m c main_v1 : S384x192.Idx → Elt F .f32)
      = transpose S384x192 [1, 0] (concatenate S192x384 0 [⟨S64x384, m ((c : Thread nD τ).loc main_arg2)⟩, ⟨S64x384, m ((c : Thread nD τ).loc main_arg1)⟩, ⟨S64x384, m ((c : Thread nD τ).loc main_arg3)⟩] concatenates_S64x384_S64x384_S64x384_S192x384_d0) transposes_S192x384_S384x192_1_0 := by
  dsimp only [entryMem, hostOps0]
  after_results
  rfl

/-- After the run the result array is `arrayOut` of the embedding array and the fused weights. -/
theorem result_array (c : Dev nD) :
    (launchData m 0 c).arrAt 2 cfg0.N = arrayOut (m ((c : Thread nD τ).loc main_arg0)) (entryMem m c main_v1) := by
  rw [← entryMem_arg0 m c]
  exact (launchData m 0 c).arrAt_eq_of_cover 2 (arrayOut (entryMem m c main_arg0) (entryMem m c main_v1)) (fun t _ => flushed_out m c t) (blocks_cover c)

end Cert.KernelIdeal.Launched

end
-- ==== Proof.Attention.lean ====
/-
  Causal single-head attention over the extended reals: the one function both programs compute.

  For a batch row with query, key and value matrices `q k v` (256 positions × 64 features):
    score t s   = (∑ h, q t h · k s h) · ⅛                      (⅛ = 64^(-1/2), an exact binary value)
    masked t s  = score t s where position s is not after t, else −∞
    rowMax t    = the maximum over s of masked t s (from −∞)
    expo t s    = exp (masked t s − rowMax t)                    (exp (−∞) = 0)
    weight t s  = expo t s / ∑ s', expo t s'
    rowAttn t h = ∑ s, weight t s · v s h.
  The three matrices are the projections of the row's embedding matrix (256 × 384) by the weight matrices (64 × 384):
  proj E W b t h = ∑ e, E b t e · W h e.  `attn` is the whole result array, 1024 × 256 × 64.

  The comparison "s is not after t" is kept as the machine's signed comparison of the two positions as 32-bit words
  (`causalBit`), and ⅛ and −∞ as the f32 words that spell them, because both programs spell them that way: nothing
  below depends on evaluating them.
-/
import Idealize.ShloMosaic.PureOps.Ideal
import Idealize.ShloMosaic.Lib.ValueIdx

noncomputable section

open scoped BigOperators

namespace Cert.Attention

open Idealize.ShloMosaic Idealize.ShloMosaic.ValueIdx

/-- "Position `s` is not after position `t`", as the one-bit result of the signed comparison `t ≥ s` of 32-bit words. -/
def causalBit (t s : Fin 256) : BitVec 1 := IntOp.cmpi .sge (BitVec.ofNat 32 t.val) (BitVec.ofNat 32 s.val)

/-- The scale 64^(-1/2) = 1/8, as its f32 word read at the extended reals. -/
def eighth : EReal := Ideal.ofBits .f32 0x3E000000#32

/-- Minus infinity, as its f32 word read at the extended reals. -/
def negInf : EReal := Ideal.ofBits .f32 0xFF800000#32

theorem negInf_eq_bot : negInf = ⊥ := by simp [negInf, Ideal.ofBits, Ideal.ieee]

section Row

variable (q k v : Fin 256 → Fin 64 → EReal)

def score (t s : Fin 256) : EReal := (∑ h : Fin 64, q t h * k s h) * eighth

def masked (t s : Fin 256) : EReal := Scalar.select (causalBit t s) (score q k t s) negInf

def rowMax (t : Fin 256) : EReal := (Finset.univ : Finset (Fin 256)).fold max negInf (fun s => masked q k t s)

def expo (t s : Fin 256) : EReal := Ideal.exp (masked q k t s - rowMax q k t)

def denom (t : Fin 256) : EReal := ∑ s : Fin 256, expo q k t s

def weight (t s : Fin 256) : EReal := Ideal.div (expo q k t s) (denom q k t)

/-- One batch row's attention output at position `t`, feature `h`. -/
def rowAttn (t : Fin 256) (h : Fin 64) : EReal := ∑ s : Fin 256, weight q k t s * v s h

end Row

/-- The projection of batch row `b`'s embedding matrix by a weight matrix. -/
def proj (E : FVec Ideal ⟨3, ![1024, 256, 384]⟩ .f32) (W : FVec Ideal ⟨2, ![64, 384]⟩ .f32)
    (b : Fin 1024) (t : Fin 256) (h : Fin 64) : EReal :=
  ∑ e : Fin 384, E (ix3 b t e) * W (ix2 h e)

/-- The whole result: every batch row's attention over its own projections.  The weight matrices come in the
    programs' argument order: key, query, value. -/
def attn (E : FVec Ideal ⟨3, ![1024, 256, 384]⟩ .f32) (Wk Wq Wv : FVec Ideal ⟨2, ![64, 384]⟩ .f32) :
    FVec Ideal ⟨3, ![1024, 256, 64]⟩ .f32 := fun i =>
  rowAttn (proj E Wq (i 0)) (proj E Wk (i 0)) (proj E Wv (i 0)) (i 1) (i 2)

end Cert.Attention

end
-- ==== Proof.RowPayload.lean ====
/-
  One trip of the kernel's loop, read at an index over the extended reals.

  A trip takes one batch row's query, key and value blocks q, k, v (each 1 × 256 × 64) and stores a 1 × 256 × 64 block.
  Viewed as 256 × 64 matrices Q, K, V, the steps are: the scores Q Kᵀ scaled by ⅛; the causal mask, which keeps the
  score at (t, s) where position s is not after position t and puts −∞ elsewhere; each row's maximum, from −∞; the
  exponentials of the masked scores less their row's maximum; each row's sum of them, from 0; the quotients; and the
  product of the quotients with V.  Each step below is read at one entry, and the composite at (0, r, h) is the
  specification's rowAttn Q K V r h.
-/
import proofs.«132341_j24850680774786_2_alg».proof.Proof.Gen.KernelIdeal.Skeleton
import proofs.«132341_j24850680774786_2_alg».proof.Proof.Attention
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.KernelIdeal.RowPayload

open Cert.KernelIdeal Cert.KernelIdeal.Gen Idealize.ShloMosaic Idealize.ShloMosaic.ValueIdx

/-! ## The layout and reduction steps of the loop body, each read at one coordinate -/

/-- A block with a leading unit axis viewed as a matrix reads, at (t, h), the block at (0, t, h). -/
theorem cast_at {α : Type} (x : S1x256x64.Idx → α) (t : Fin 256) (h : Fin 64) :
    shapeCast S256x64 x shapeCasts_S1x256x64_S256x64 (ix2 t h) = x (ix3 (0 : Fin 1) t h) :=
  shapeCast_1ab_ab_apply x _ t h

/-- The masking constant is named: at the extended reals it is minus infinity. -/
theorem negBig : Named.named (F := Ideal) κ "neg_big" (φ := .f32) 0xF149F2CA#32 = Cert.Attention.negInf := by
  rw [Cert.Attention.negInf_eq_bot]
  exact IdealRules.named_const.ideal_named_scalar _ _ _ _ rfl

/-- The causal mask at (t, s) is the signed comparison of the two positions as 32-bit words. -/
theorem mask_at (t s : Fin 256) :
    cmpi .sge (iota .tc S256x256 32 [0] iota_S256x256_d0_w32) (iota .tc S256x256 32 [1] iota_S256x256_d1_w32) (ix2 t s)
      = Cert.Attention.causalBit t s := by
  show IntOp.cmpi .sge _ _ = _
  rw [iota_single_apply, iota_single_apply]
  rfl

/-- Queries against transposed keys, accumulated from zero: the dot product of query row t and key row s. -/
theorem qk_at (q2 k2 : FVec Ideal S256x64 .bf16) (t s : Fin 256) :
    matmul dot_S256x64_S64x256_S256x256_1_0_0_1_n_n none q2 (transpose S64x256 [1, 0] k2 transposes_S256x64_p1_0_S64x256)
        (constant S256x256 .f32 0x00000000#32) (ix2 t s)
      = ∑ h : Fin 64, q2 (ix2 t h) * k2 (ix2 s h) := by
  simp only [matmul]
  rw [Ideal.matmul_constant_zero_apply,
    ← Equiv.sum_comp (contrEquiv1 dot_S256x64_S64x256_S256x256_1_0_0_1_n_n 64 rfl rfl).symm]
  refine Finset.sum_congr rfl fun h _ => ?_
  have hk := contrEquiv1_symm_val dot_S256x64_S64x256_S256x256_1_0_0_1_n_n 64 rfl rfl h
  have el : dot_S256x64_S64x256_S256x256_1_0_0_1_n_n.lhsIdx (ix2 t s)
      ((contrEquiv1 dot_S256x64_S64x256_S256x256_1_0_0_1_n_n 64 rfl rfl).symm h) = ix2 t h :=
    funext fun a => Fin.ext (by
      match a with
      | ⟨0, _⟩ => rfl
      | ⟨1, _⟩ => exact (dot_S256x64_S64x256_S256x256_1_0_0_1_n_n.lhsIdx_val_of_single rfl _ _).trans hk)
  have er : dot_S256x64_S64x256_S256x256_1_0_0_1_n_n.rhsIdx (ix2 t s)
      ((contrEquiv1 dot_S256x64_S64x256_S256x256_1_0_0_1_n_n 64 rfl rfl).symm h) = ix2 h s :=
    funext fun a => Fin.ext (by
      match a with
      | ⟨0, _⟩ => exact (dot_S256x64_S64x256_S256x256_1_0_0_1_n_n.rhsIdx_val_of_single rfl _ _).trans hk
      | ⟨1, _⟩ => rfl)
  rw [el, er, transpose_ix2_apply]

/-- Weights against values, accumulated from zero: the weighted sum of the value rows. -/
theorem wv_at (w : FVec Ideal S256x256 .bf16) (v2 : FVec Ideal S256x64 .bf16) (t : Fin 256) (h : Fin 64) :
    matmul dot_S256x256_S256x64_S256x64_1_0_0_1_n_n none w v2 (constant S256x64 .f32 0x00000000#32) (ix2 t h)
      = ∑ s : Fin 256, w (ix2 t s) * v2 (ix2 s h) := by
  simp only [matmul]
  rw [Ideal.matmul_constant_zero_apply,
    ← Equiv.sum_comp (contrEquiv1 dot_S256x256_S256x64_S256x64_1_0_0_1_n_n 256 rfl rfl).symm]
  refine Finset.sum_congr rfl fun s _ => ?_
  have hk := contrEquiv1_symm_val dot_S256x256_S256x64_S256x64_1_0_0_1_n_n 256 rfl rfl s
  have el : dot_S256x256_S256x64_S256x64_1_0_0_1_n_n.lhsIdx (ix2 t h)
      ((contrEquiv1 dot_S256x256_S256x64_S256x64_1_0_0_1_n_n 256 rfl rfl).symm s) = ix2 t s :=
    funext fun a => Fin.ext (by
      match a with
      | ⟨0, _⟩ => rfl
      | ⟨1, _⟩ => exact (dot_S256x256_S256x64_S256x64_1_0_0_1_n_n.lhsIdx_val_of_single rfl _ _).trans hk)
  have er : dot_S256x256_S256x64_S256x64_1_0_0_1_n_n.rhsIdx (ix2 t h)
      ((contrEquiv1 dot_S256x256_S256x64_S256x64_1_0_0_1_n_n 256 rfl rfl).symm s) = ix2 s h :=
    funext fun a => Fin.ext (by
      match a with
      | ⟨0, _⟩ => exact (dot_S256x256_S256x64_S256x64_1_0_0_1_n_n.rhsIdx_val_of_single rfl _ _).trans hk
      | ⟨1, _⟩ => rfl)
  rw [el, er]

/-- A row maximum taken from minus infinity is the fold of max over the row. -/
theorem rowmax_at (src : FVec Ideal S256x256 .f32) (t : Fin 256) :
    multiReduction .maximumf [1] S256 src 0xFF800000#32 reduces_S256x256_S256 (.inl rfl) rfl (ix1 t)
      = (Finset.univ : Finset (Fin 256)).fold max Cert.Attention.negInf (fun s => src (ix2 t s)) := by
  refine (Ideal.multiReduction_maximumf_single src _ reduces_S256x256_S256 _ _ (ix1 t)).trans ?_
  refine congrArg (fun f => (Finset.univ : Finset (Fin 256)).fold max Cert.Attention.negInf f) ?_
  funext s
  refine congrArg src (funext fun a => Fin.ext ?_)
  match a with
  | ⟨0, _⟩ => rfl
  | ⟨1, _⟩ => rfl

/-- A row sum taken from zero is the sum over the row. -/
theorem rowsum_at (src : FVec Ideal S256x256 .f32) (t : Fin 256) :
    multiReduction .add [1] S256 src 0x00000000#32 reduces_S256x256_S256 (.inl rfl) rfl (ix1 t)
      = ∑ s : Fin 256, src (ix2 t s) := by
  refine (Ideal.multiReduction_add_single src _ reduces_S256x256_S256 _ _ (ix1 t)).trans ?_
  refine Finset.sum_congr rfl fun s _ => ?_
  refine congrArg src (funext fun a => Fin.ext ?_)
  match a with
  | ⟨0, _⟩ => rfl
  | ⟨1, _⟩ => rfl

/-- A per-row value, viewed as a column and spread along the row, reads the row's value at every column. -/
theorem keepdims_at {α : Type} (v : S256.Idx → α) (t s : Fin 256) :
    broadcastTo S256x256 (shapeCast S256x1 v shapeCasts_S256_S256x1) broadcasts_S256x1_S256x256 (ix2 t s) = v (ix1 t) := by
  refine (broadcastTo_apply _ broadcasts_S256x1_S256x256 (ix2 t s) (ix2 t (0 : Fin 1)) fun a => ?_).trans ?_
  · match a with
    | ⟨0, _⟩ => rfl
    | ⟨1, _⟩ => rfl
  · refine shapeCast_apply v shapeCasts_S256_S256x1 _ _ ?_
    rw [Shape.rowMajor_val_two, Shape.rowMajor_val_one]
    show t.val = t.val * 1 + 0
    omega

/-- The exponential of a matrix is taken entry by entry. -/
theorem exp_at (a : FVec Ideal S256x256 .f32) (i : S256x256.Idx) : exp a i = Ideal.exp (a i) := rfl

/-! ## The intermediate matrices of one trip, and what each holds -/

section Trip

variable (q k v : Vec Ideal S1x256x64 .bf16)

/-- The three operands as the specification's matrices. -/
local notation "Q" => (fun (t : Fin 256) (h : Fin 64) => q (ix3 (0 : Fin 1) t h))
local notation "K" => (fun (t : Fin 256) (h : Fin 64) => k (ix3 (0 : Fin 1) t h))
local notation "V" => (fun (t : Fin 256) (h : Fin 64) => v (ix3 (0 : Fin 1) t h))

/-- The masked, scaled scores. -/
def maskedV : FVec Ideal S256x256 .f32 :=
  select (cmpi .sge (iota .tc S256x256 32 [0] iota_S256x256_d0_w32) (iota .tc S256x256 32 [1] iota_S256x256_d1_w32))
    (mulf (matmul dot_S256x64_S64x256_S256x256_1_0_0_1_n_n none
        (shapeCast S256x64 q shapeCasts_S1x256x64_S256x64 : FVec Ideal S256x64 .bf16)
        (transpose S64x256 [1, 0] (shapeCast S256x64 k shapeCasts_S1x256x64_S256x64 : FVec Ideal S256x64 .bf16)
          transposes_S256x64_p1_0_S64x256)
        (constant S256x256 .f32 0x00000000#32))
      (broadcast S256x256 (Scalar.ofBits .f32 0x3E000000#32)))
    (broadcast S256x256 (Named.named κ "neg_big" 0xF149F2CA#32))

theorem masked_at (t s : Fin 256) : maskedV q k (ix2 t s) = Cert.Attention.masked Q K t s := by
  unfold maskedV
  rw [select_apply, mask_at, mulf_apply, qk_at, broadcast_apply, broadcast_apply, negBig]
  simp only [cast_at]
  rfl

/-- The exponentials of the scores less their row maximum. -/
def expoV : FVec Ideal S256x256 .f32 :=
  exp (subf (maskedV q k)
    (broadcastTo S256x256 (shapeCast S256x1
      (multiReduction .maximumf [1] S256 (maskedV q k) 0xFF800000#32 reduces_S256x256_S256 (.inl rfl) rfl)
      shapeCasts_S256_S256x1) broadcasts_S256x1_S256x256))

theorem expo_at (t s : Fin 256) : expoV q k (ix2 t s) = Cert.Attention.expo Q K t s := by
  unfold expoV
  rw [exp_at, subf_apply, keepdims_at, rowmax_at, masked_at]
  simp only [masked_at]
  rfl

/-- The attention weights. -/
def weightV : FVec Ideal S256x256 .bf16 :=
  truncf .bf16 (divf (expoV q k)
    (broadcastTo S256x256 (shapeCast S256x1
      (multiReduction .add [1] S256 (expoV q k) 0x00000000#32 reduces_S256x256_S256 (.inl rfl) rfl)
      shapeCasts_S256_S256x1) broadcasts_S256x1_S256x256)) bitsLt_bf16_f32

theorem weight_at (t s : Fin 256) : weightV q k (ix2 t s) = Cert.Attention.weight Q K t s := by
  unfold weightV
  rw [truncf_apply, divf_apply, keepdims_at, rowsum_at, expo_at]
  simp only [expo_at]
  rfl

/-- The stored block is the weights against the values, with the unit axis put back. -/
theorem pay5_eq : k0_pay5 (F := Ideal) q k v
    = shapeCast S1x256x64 (matmul dot_S256x256_S256x64_S256x64_1_0_0_1_n_n none (weightV q k)
        (shapeCast S256x64 v shapeCasts_S1x256x64_S256x64 : FVec Ideal S256x64 .bf16) (constant S256x64 .f32 0x00000000#32))
      shapeCasts_S256x64_S1x256x64 := rfl

end Trip

/-- What one trip stores, at position r and feature h: the row's attention output. -/
theorem row_payload_at (q k v : Vec Ideal S1x256x64 .bf16) (r : Fin 256) (h : Fin 64) :
    k0_pay5 (F := Ideal) q k v (ix3 (0 : Fin 1) r h)
      = Cert.Attention.rowAttn (fun t h => q (ix3 (0 : Fin 1) t h)) (fun t h => k (ix3 (0 : Fin 1) t h))
          (fun t h => v (ix3 (0 : Fin 1) t h)) r h := by
  rw [pay5_eq, shapeCast_ab_1ab_apply, wv_at]
  simp only [weight_at, cast_at]
  rfl

end Cert.KernelIdeal.RowPayload

end
-- ==== Proof.Projections.lean ====
/-
  The kernel's fused projection read at an index, at the extended reals.

  The kernel flattens its block of sixteen embedding matrices (16 × 256 × 384) to one matrix of 4096 rows, row
  256·b + r being position r of batch row b, multiplies it by the fused weight matrix (384 × 192) into a zero
  accumulator, cuts the product into three bands of 64 columns (query, key, value) and folds each band back to
  16 × 256 × 64.  Read at (b, r, h) a band is therefore
      ∑ e, x (b, r, e) · w (e, o + h)        with o = 0, 64, 128,
  because a change of format is the identity on extended reals, a shape cast keeps the row-major position, and a
  one-axis contraction is the sum over its one coordinate.

  The fused weight matrix is the transpose of the three weight matrices (64 × 384 each) stacked along the rows, so its
  entry (e, o + h) is entry (h, e) of the band's own weight matrix.
-/
import proofs.«132341_j24850680774786_2_alg».proof.Proof.Gen.KernelIdeal.Skeleton
import proofs.«132341_j24850680774786_2_alg».proof.Proof.Attention
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Projections

open Cert.KernelIdeal Cert.KernelIdeal.Gen Idealize.ShloMosaic Idealize.ShloMosaic.ValueIdx

/-- Row `256·b + r` of the flattened block: position `r` of batch row `b`. -/
abbrev flat (b : Fin 16) (r : Fin 256) : Fin 4096 := ⟨256 * b.val + r.val, by omega⟩

/-! ## The two shape casts -/

section Casts
variable {α : Type}

/-- The block flattened to 4096 rows reads, at row `256·b + r`, the block at `(b, r, ·)`. -/
theorem flatten_at (X : S16x256x384.Idx → α) (hc : S16x256x384.ShapeCasts S4096x384) (b : Fin 16) (r : Fin 256) (e : Fin 384) :
    shapeCast S4096x384 X hc (ix2 (flat b r) e) = X (ix3 b r e) := by
  refine shapeCast_apply X hc _ _ ?_
  rw [Shape.rowMajor_val_three, Shape.rowMajor_val_two]
  show (b.val * 256 + r.val) * 384 + e.val = (256 * b.val + r.val) * 384 + e.val
  omega

/-- A band folded back to sixteen matrices reads, at `(b, r, c)`, the band at row `256·b + r`. -/
theorem fold_at (Y : S4096x64.Idx → α) (hc : S4096x64.ShapeCasts S16x256x64) (b : Fin 16) (r : Fin 256) (c : Fin 64) :
    shapeCast S16x256x64 Y hc (ix3 b r c) = Y (ix2 (flat b r) c) := by
  refine shapeCast_apply Y hc _ _ ?_
  rw [Shape.rowMajor_val_three, Shape.rowMajor_val_two]
  show (256 * b.val + r.val) * 64 + c.val = (b.val * 256 + r.val) * 64 + c.val
  omega

end Casts

/-! ## The matrix product at an index -/

theorem lhs_0 (j : S4096x192.Idx) (q : dot_S4096x384_S384x192_S4096x192_1_0_0_1_n_n.contr.Idx) :
    (dot_S4096x384_S384x192_S4096x192_1_0_0_1_n_n.lhsIdx j q 0).val = (j 0).val := by
  unfold DotDims.lhsIdx
  rw [dif_neg (show ¬(0 : Fin S4096x384.rank) ∈ dot_S4096x384_S384x192_S4096x192_1_0_0_1_n_n.lhsBatch by decide), dif_pos (show (0 : Fin S4096x384.rank) ∈ dot_S4096x384_S384x192_S4096x192_1_0_0_1_n_n.lhsNonContracting by decide)]
  rfl
theorem lhs_1 (j : S4096x192.Idx) (q : dot_S4096x384_S384x192_S4096x192_1_0_0_1_n_n.contr.Idx) :
    (dot_S4096x384_S384x192_S4096x192_1_0_0_1_n_n.lhsIdx j q 1).val = (q ⟨0, by decide⟩).val :=
  dot_S4096x384_S384x192_S4096x192_1_0_0_1_n_n.lhsIdx_val_of_single rfl j q
theorem rhs_0 (j : S4096x192.Idx) (q : dot_S4096x384_S384x192_S4096x192_1_0_0_1_n_n.contr.Idx) :
    (dot_S4096x384_S384x192_S4096x192_1_0_0_1_n_n.rhsIdx j q 0).val = (q ⟨0, by decide⟩).val :=
  dot_S4096x384_S384x192_S4096x192_1_0_0_1_n_n.rhsIdx_val_of_single rfl j q
theorem rhs_1 (j : S4096x192.Idx) (q : dot_S4096x384_S384x192_S4096x192_1_0_0_1_n_n.contr.Idx) :
    (dot_S4096x384_S384x192_S4096x192_1_0_0_1_n_n.rhsIdx j q 1).val = (j 1).val := by
  unfold DotDims.rhsIdx
  rw [dif_neg (show ¬(1 : Fin S384x192.rank) ∈ dot_S4096x384_S384x192_S4096x192_1_0_0_1_n_n.rhsBatch by decide), dif_pos (show (1 : Fin S384x192.rank) ∈ dot_S4096x384_S384x192_S4096x192_1_0_0_1_n_n.rhsNonContracting by decide)]
  rfl

/-- The product of a 4096 × 384 matrix and a 384 × 192 matrix into the zero accumulator, at `(i, c)`: the sum over the
    contracted coordinate. -/
theorem matmul_at {φ₁ φ₂ : FTy} (A : FVec Ideal S4096x384 φ₁) (B : FVec Ideal S384x192 φ₂) (i : Fin 4096) (c : Fin 192) :
    FloatOps.matmul dot_S4096x384_S384x192_S4096x192_1_0_0_1_n_n none A B (constant S4096x192 .f32 0x00000000#32) (ix2 i c)
      = ∑ e : Fin 384, A (ix2 i e) * B (ix2 e c) := by
  rw [Ideal.matmul_constant_zero_apply, ← Equiv.sum_comp (contrEquiv1 dot_S4096x384_S384x192_S4096x192_1_0_0_1_n_n 384 rfl rfl).symm]
  refine Finset.sum_congr rfl fun e _ => ?_
  have hk := contrEquiv1_symm_val dot_S4096x384_S384x192_S4096x192_1_0_0_1_n_n 384 rfl rfl e
  have el : dot_S4096x384_S384x192_S4096x192_1_0_0_1_n_n.lhsIdx (ix2 i c) ((contrEquiv1 dot_S4096x384_S384x192_S4096x192_1_0_0_1_n_n 384 rfl rfl).symm e) = ix2 i e := funext fun a => Fin.ext (by
    match a with
    | ⟨0, _⟩ => exact lhs_0 _ _
    | ⟨1, _⟩ => exact (lhs_1 _ _).trans hk)
  have er : dot_S4096x384_S384x192_S4096x192_1_0_0_1_n_n.rhsIdx (ix2 i c) ((contrEquiv1 dot_S4096x384_S384x192_S4096x192_1_0_0_1_n_n 384 rfl rfl).symm e) = ix2 e c := funext fun a => Fin.ext (by
    match a with
    | ⟨0, _⟩ => exact (rhs_0 _ _).trans hk
    | ⟨1, _⟩ => exact rhs_1 _ _)
  rw [el, er]

/-- The kernel's product at row `256·b + r`, column `c`. -/
theorem pay1_at (x0 : Vec Ideal S16x256x384 .f32) (w : Vec Ideal S384x192 .f32) (b : Fin 16) (r : Fin 256) (c : Fin 192) :
    k0_pay1 (F := Ideal) x0 w (ix2 (flat b r) c) = ∑ e : Fin 384, x0 (ix3 b r e) * w (ix2 e c) := by
  unfold k0_pay1
  refine (matmul_at _ _ _ _).trans ?_
  refine Finset.sum_congr rfl fun e _ => ?_
  congr 1
  · exact (flatten_at _ _ b r e).trans (truncf_apply _ _ _)
  · exact (truncf_apply (φ := .f32) (ψ := .bf16) _ bitsLt_bf16_f32 _).trans (congrFun (shapeCast_self w _) _)

/-! ## The three bands -/

/-- The query band at `(b, r, h)`: columns 0–63 of the product. -/
theorem query_at (x0 : Vec Ideal S16x256x384 .f32) (w : Vec Ideal S384x192 .f32) (b : Fin 16) (r : Fin 256) (h : Fin 64) :
    k0_pay2 (F := Ideal) x0 w (ix3 b r h) = ∑ e : Fin 384, x0 (ix3 b r e) * w (ix2 e ⟨h.val, by omega⟩) := by
  unfold k0_pay2
  refine (congrFun (shapeCast_self _ _) _).trans ?_
  refine (truncf_apply (φ := .f32) (ψ := .bf16) _ bitsLt_bf16_f32 _).trans ?_
  refine (fold_at _ _ b r h).trans ?_
  refine (slice2_axis1_apply (n0 := 4096) (n1 := 192) (m := 64) 0 (k0_pay1 (F := Ideal) x0 w) slices_S4096x192_o0_0_S4096x64 (flat b r) h ⟨h.val, by omega⟩ (Nat.zero_add _).symm).trans ?_
  exact pay1_at x0 w b r _

/-- The key band at `(b, r, h)`: columns 64–127 of the product. -/
theorem key_at (x0 : Vec Ideal S16x256x384 .f32) (w : Vec Ideal S384x192 .f32) (b : Fin 16) (r : Fin 256) (h : Fin 64) :
    k0_pay3 (F := Ideal) x0 w (ix3 b r h) = ∑ e : Fin 384, x0 (ix3 b r e) * w (ix2 e ⟨64 + h.val, by omega⟩) := by
  unfold k0_pay3
  refine (congrFun (shapeCast_self _ _) _).trans ?_
  refine (truncf_apply (φ := .f32) (ψ := .bf16) _ bitsLt_bf16_f32 _).trans ?_
  refine (fold_at _ _ b r h).trans ?_
  refine (slice2_axis1_apply (n0 := 4096) (n1 := 192) (m := 64) 64 (k0_pay1 (F := Ideal) x0 w) slices_S4096x192_o0_64_S4096x64 (flat b r) h ⟨64 + h.val, by omega⟩ rfl).trans ?_
  exact pay1_at x0 w b r _

/-- The value band at `(b, r, h)`: columns 128–191 of the product. -/
theorem value_at (x0 : Vec Ideal S16x256x384 .f32) (w : Vec Ideal S384x192 .f32) (b : Fin 16) (r : Fin 256) (h : Fin 64) :
    k0_pay4 (F := Ideal) x0 w (ix3 b r h) = ∑ e : Fin 384, x0 (ix3 b r e) * w (ix2 e ⟨128 + h.val, by omega⟩) := by
  unfold k0_pay4
  refine (congrFun (shapeCast_self _ _) _).trans ?_
  refine (truncf_apply (φ := .f32) (ψ := .bf16) _ bitsLt_bf16_f32 _).trans ?_
  refine (fold_at _ _ b r h).trans ?_
  refine (slice2_axis1_apply (n0 := 4096) (n1 := 192) (m := 64) 128 (k0_pay1 (F := Ideal) x0 w) slices_S4096x192_o0_128_S4096x64 (flat b r) h ⟨128 + h.val, by omega⟩ rfl).trans ?_
  exact pay1_at x0 w b r _

/-! ## The fused weight matrix -/

section Fused
variable {α : Type} (Wq Wk Wv : S64x384.Idx → α)
  (hc : Shape.Concatenates [S64x384, S64x384, S64x384] S192x384 0) (ht : S192x384.Transposes [1, 0] S384x192)

/-- The three weight matrices stacked along the rows, at row `pre + h` of piece `k`: that piece at row `h`. -/
theorem stacked_at (k : Nat) (hk : k < 3) (X : S64x384.Idx → α)
    (hX : [(⟨S64x384, Wq⟩ : (s : Shape) × (s.Idx → α)), ⟨S64x384, Wk⟩, ⟨S64x384, Wv⟩][k]'hk = ⟨S64x384, X⟩)
    (h : Fin 64) (e : Fin 384) (c : Fin 192) (hcv : 64 * k + h.val = c.val) :
    concatenate S192x384 0 [⟨S64x384, Wq⟩, ⟨S64x384, Wk⟩, ⟨S64x384, Wv⟩] hc (ix2 c e) = X (ix2 h e) := by
  refine concatenate_apply_piece (t := S192x384) 0 [⟨S64x384, Wq⟩, ⟨S64x384, Wk⟩, ⟨S64x384, Wv⟩] hc (ix2 c e) k hk S64x384 X hX rfl (64 * k) ?_ (ix2 h e) ?_ hcv
  · match k, hk with
    | 0, _ => rfl
    | 1, _ => rfl
    | 2, _ => rfl
  · intro a ha
    match a with
    | ⟨0, _⟩ => exact absurd rfl ha
    | ⟨1, _⟩ => rfl

/-- Column `h` of the fused weights is row `h` of the first stacked matrix. -/
theorem fused_query (e : Fin 384) (h : Fin 64) :
    transpose S384x192 [1, 0] (concatenate S192x384 0 [⟨S64x384, Wq⟩, ⟨S64x384, Wk⟩, ⟨S64x384, Wv⟩] hc) ht (ix2 e ⟨h.val, by omega⟩)
      = Wq (ix2 h e) :=
  (transpose_ix2_apply _ ht e _).trans (stacked_at Wq Wk Wv hc 0 (by omega) Wq rfl h e _ (Nat.zero_add _))

/-- Column `64 + h` of the fused weights is row `h` of the second stacked matrix. -/
theorem fused_key (e : Fin 384) (h : Fin 64) :
    transpose S384x192 [1, 0] (concatenate S192x384 0 [⟨S64x384, Wq⟩, ⟨S64x384, Wk⟩, ⟨S64x384, Wv⟩] hc) ht (ix2 e ⟨64 + h.val, by omega⟩)
      = Wk (ix2 h e) :=
  (transpose_ix2_apply _ ht e _).trans (stacked_at Wq Wk Wv hc 1 (by omega) Wk rfl h e _ rfl)

/-- Column `128 + h` of the fused weights is row `h` of the third stacked matrix. -/
theorem fused_value (e : Fin 384) (h : Fin 64) :
    transpose S384x192 [1, 0] (concatenate S192x384 0 [⟨S64x384, Wq⟩, ⟨S64x384, Wk⟩, ⟨S64x384, Wv⟩] hc) ht (ix2 e ⟨128 + h.val, by omega⟩)
      = Wv (ix2 h e) :=
  (transpose_ix2_apply _ ht e _).trans (stacked_at Wq Wk Wv hc 2 (by omega) Wv rfl h e _ rfl)

end Fused

end Cert.KernelIdeal.Projections

end
-- ==== Proof.IdealValue.lean ====
/-
  The result array of the idealized kernel is causal attention.

  After the run the result array is, at (n, r, h), the trip payload of batch row `n`'s three projections at (r, h)
  (`arrayOut`).  Over the extended reals that payload is the specification's row attention of its three operands, and
  each projection is the embedding row against the matching columns of the fused weights — columns 0–63 the query
  weights, 64–127 the key weights, 128–191 the value weights, because the fused matrix is those three stacked and
  transposed.  So the array is `attn` of the four argument arrays.
-/
import proofs.«132341_j24850680774786_2_alg».proof.Proof.IdealArray
import proofs.«132341_j24850680774786_2_alg».proof.Proof.RowPayload
import proofs.«132341_j24850680774786_2_alg».proof.Proof.Projections

set_option maxRecDepth 16384

noncomputable section

namespace Cert.KernelIdeal.Launched

open Cert.KernelIdeal Cert.KernelIdeal.Gen
open Idealize.ShloMosaic Idealize.ShloMosaic.TcCoe Idealize.ShloMosaic.ValueIdx
open Idealize.SL Idealize.SL.Sem

/-- A projection payload of sixteen embedding rows against the fused weights, at batch row 16·q + b: the
    specification's projection by the matrix whose rows are those columns. -/
theorem query_is_proj (E : S1024x256x384.Idx → Elt Ideal .f32) (Wk Wq Wv : S64x384.Idx → Elt Ideal .f32) (q : Fin 64) (b : Fin 16)
    (n : Fin 1024) (hn : n.val = 16 * q.val + b.val) (t : Fin 256) (h : Fin 64) :
    k0_pay2 (F := Ideal) (embRows E q) (transpose S384x192 [1, 0] (concatenate S192x384 0 [⟨S64x384, Wq⟩, ⟨S64x384, Wk⟩, ⟨S64x384, Wv⟩] concatenates_S64x384_S64x384_S64x384_S192x384_d0) transposes_S192x384_S384x192_1_0) (ix3 b t h)
      = Cert.Attention.proj E Wq n t h := by
  rw [Projections.query_at]
  unfold Cert.Attention.proj
  refine Finset.sum_congr rfl fun e _ => ?_
  rw [Projections.fused_query]
  have hE : embRows E q (ix3 b t e) = E (ix3 n t e) := congrArg E (by
    funext a; match a with
    | ⟨0, _⟩ => exact Fin.ext hn.symm
    | ⟨1, _⟩ => rfl
    | ⟨2, _⟩ => rfl)
  rw [hE]

theorem key_is_proj (E : S1024x256x384.Idx → Elt Ideal .f32) (Wk Wq Wv : S64x384.Idx → Elt Ideal .f32) (q : Fin 64) (b : Fin 16)
    (n : Fin 1024) (hn : n.val = 16 * q.val + b.val) (t : Fin 256) (h : Fin 64) :
    k0_pay3 (F := Ideal) (embRows E q) (transpose S384x192 [1, 0] (concatenate S192x384 0 [⟨S64x384, Wq⟩, ⟨S64x384, Wk⟩, ⟨S64x384, Wv⟩] concatenates_S64x384_S64x384_S64x384_S192x384_d0) transposes_S192x384_S384x192_1_0) (ix3 b t h)
      = Cert.Attention.proj E Wk n t h := by
  rw [Projections.key_at]
  unfold Cert.Attention.proj
  refine Finset.sum_congr rfl fun e _ => ?_
  rw [Projections.fused_key]
  have hE : embRows E q (ix3 b t e) = E (ix3 n t e) := congrArg E (by
    funext a; match a with
    | ⟨0, _⟩ => exact Fin.ext hn.symm
    | ⟨1, _⟩ => rfl
    | ⟨2, _⟩ => rfl)
  rw [hE]

theorem value_is_proj (E : S1024x256x384.Idx → Elt Ideal .f32) (Wk Wq Wv : S64x384.Idx → Elt Ideal .f32) (q : Fin 64) (b : Fin 16)
    (n : Fin 1024) (hn : n.val = 16 * q.val + b.val) (t : Fin 256) (h : Fin 64) :
    k0_pay4 (F := Ideal) (embRows E q) (transpose S384x192 [1, 0] (concatenate S192x384 0 [⟨S64x384, Wq⟩, ⟨S64x384, Wk⟩, ⟨S64x384, Wv⟩] concatenates_S64x384_S64x384_S64x384_S192x384_d0) transposes_S192x384_S384x192_1_0) (ix3 b t h)
      = Cert.Attention.proj E Wv n t h := by
  rw [Projections.value_at]
  unfold Cert.Attention.proj
  refine Finset.sum_congr rfl fun e _ => ?_
  rw [Projections.fused_value]
  have hE : embRows E q (ix3 b t e) = E (ix3 n t e) := congrArg E (by
    funext a; match a with
    | ⟨0, _⟩ => exact Fin.ext hn.symm
    | ⟨1, _⟩ => rfl
    | ⟨2, _⟩ => rfl)
  rw [hE]

/-- The result array, as a function of the embedding array and the stacked, transposed weights, is causal attention. -/
theorem arrayOut_is_attention (E : S1024x256x384.Idx → Elt Ideal .f32) (Wk Wq Wv : S64x384.Idx → Elt Ideal .f32) :
    arrayOut (F := Ideal) E (transpose S384x192 [1, 0] (concatenate S192x384 0 [⟨S64x384, Wq⟩, ⟨S64x384, Wk⟩, ⟨S64x384, Wv⟩] concatenates_S64x384_S64x384_S64x384_S192x384_d0) transposes_S192x384_S384x192_1_0)
      = Cert.Attention.attn E Wk Wq Wv := by
  funext i
  obtain ⟨n, r, h, rfl⟩ : ∃ (n : Fin 1024) (r : Fin 256) (h : Fin 64), i = ix3 n r h := ⟨i 0, i 1, i 2, eq_ix3 i⟩
  have hn0 : n.val < 1024 := n.isLt
  obtain ⟨q, b, hq⟩ : ∃ (q : Fin 64) (b : Fin 16), n.val = 16 * q.val + b.val :=
    ⟨⟨n.val / 16, by omega⟩, ⟨n.val % 16, Nat.mod_lt _ (by decide)⟩, by show n.val = 16 * (n.val / 16) + n.val % 16; omega⟩
  rw [arrayOut_at E _ q b r h (ix3 n r h) hq rfl rfl]
  refine (RowPayload.row_payload_at _ _ _ r h).trans ?_
  show _ = Cert.Attention.rowAttn (Cert.Attention.proj E Wq n) (Cert.Attention.proj E Wk n) (Cert.Attention.proj E Wv n) r h
  have hQ : (fun (t : Fin 256) (h : Fin 64) => rowOf (F := Ideal) (k0_pay2 (embRows E q) (transpose S384x192 [1, 0] (concatenate S192x384 0 [⟨S64x384, Wq⟩, ⟨S64x384, Wk⟩, ⟨S64x384, Wv⟩] concatenates_S64x384_S64x384_S64x384_S192x384_d0) transposes_S192x384_S384x192_1_0)) b (ix3 (0 : Fin 1) t h))
      = Cert.Attention.proj E Wq n := funext fun t => funext fun h => query_is_proj E Wk Wq Wv q b n hq t h
  have hK : (fun (t : Fin 256) (h : Fin 64) => rowOf (F := Ideal) (k0_pay3 (embRows E q) (transpose S384x192 [1, 0] (concatenate S192x384 0 [⟨S64x384, Wq⟩, ⟨S64x384, Wk⟩, ⟨S64x384, Wv⟩] concatenates_S64x384_S64x384_S64x384_S192x384_d0) transposes_S192x384_S384x192_1_0)) b (ix3 (0 : Fin 1) t h))
      = Cert.Attention.proj E Wk n := funext fun t => funext fun h => key_is_proj E Wk Wq Wv q b n hq t h
  have hV : (fun (t : Fin 256) (h : Fin 64) => rowOf (F := Ideal) (k0_pay4 (embRows E q) (transpose S384x192 [1, 0] (concatenate S192x384 0 [⟨S64x384, Wq⟩, ⟨S64x384, Wk⟩, ⟨S64x384, Wv⟩] concatenates_S64x384_S64x384_S64x384_S192x384_d0) transposes_S192x384_S384x192_1_0)) b (ix3 (0 : Fin 1) t h))
      = Cert.Attention.proj E Wv n := funext fun t => funext fun h => value_is_proj E Wk Wq Wv q b n hq t h
  rw [hQ, hK, hV]

variable (m : (ℓ : Loc nD τ sig) → Buf (Elt Ideal) ℓ) (ρ : Dev nD → PrngReg)

/-- Every weakly fair execution of the idealized kernel ends, faultless, with the result array at causal attention of
    the four argument arrays and those arrays unchanged. -/
theorem run_attention : θ_run defs (onTc (τ := τ) (main (F := Ideal))) ⟨m, fun _ => 0, ρ⟩ (fun r => ∀ c : Dev nD,
      r.2.mem ((c.tc : Thread nD τ).loc main_v2)
        = Cert.Attention.attn (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 2).trans ((result_array m c).trans (by rw [fused_weights_found m c]; exact arrayOut_is_attention _ _ _ _)),
     ((h c).1 0).trans (((launchData m 0 c).arrAt_in 0 rfl _).trans ((launchData_A m c 0).trans (entryMem_arg0 m c))),
     ((h c).2 main_arg1 (Pipeline.mem_restRefs_of main_arg1 (by decide) (by decide))).trans (entryMem_arg1 m c),
     ((h c).2 main_arg2 (Pipeline.mem_restRefs_of main_arg2 (by decide) (by decide))).trans (entryMem_arg2 m c),
     ((h c).2 main_arg3 (Pipeline.mem_restRefs_of main_arg3 (by decide) (by decide))).trans (entryMem_arg3 m c)⟩)
    (run_main m ρ)

end Cert.KernelIdeal.Launched

end
-- ==== Proof.RefIsAttention.lean ====
/-
  The reference program computes causal single-head attention.

  The reference's stages, read at an index, are the specification's functions one after another: its three projections
  of the embedding are the key, query and value matrices; the product of queries with keys times ⅛ is the score; the
  lower-triangular selection is the causal mask; the maximum over the key position, the exponential of the difference,
  the sum of exponentials and the quotient are the row's weights; and the last product with the values is the result.
-/
import proofs.«132341_j24850680774786_2_alg».proof.Proof.Gen.ReferenceIdeal.Read
import proofs.«132341_j24850680774786_2_alg».proof.Proof.Attention

noncomputable section

open scoped BigOperators

namespace Cert.ReferenceIdeal.AsAttention

open Cert.ReferenceIdeal Cert.ReferenceIdeal.Gen Cert.ReferenceIdeal.Read Cert.Attention
open Idealize.ShloMosaic Idealize.ShloMosaic.ValueIdx

/-- Adding the zero word changes nothing. -/
theorem addi_zero (x : BitVec 32) : IntOp.addi x 0#32 = x := by
  unfold IntOp.addi; exact BitVec.add_zero x

/-- Selecting the one-bit words one and zero by a one-bit word gives the word back. -/
theorem select_one_zero (c : BitVec 1) : Scalar.select c (1#1 : BitVec 1) (0#1 : BitVec 1) = c := by
  unfold Scalar.select
  revert c; decide

variable (x0 : (⟨S1024x256x384, .f32⟩ : BufTy).Contents (Elt Ideal)) (x1 x2 x3 : (⟨S64x384, .f32⟩ : BufTy).Contents (Elt Ideal))

/-- The first projection is the embedding projected by the first weight matrix. -/
theorem v0_at (b : Fin 1024) (t : Fin 256) (h : Fin 64) :
    val_main_v0 (F := Ideal) x0 x1 (ix3 b t h) = proj x0 x1 b t h := by
  rw [val_main_v0_apply]
  unfold proj
  refine Finset.sum_congr rfl fun e _ => ?_
  have e1 : lidx_main_v0 (ix3 b t h) e = ix3 b t e := funext fun a => Fin.ext (by
    match a with | ⟨0, _⟩ => rfl | ⟨1, _⟩ => rfl | ⟨2, _⟩ => rfl)
  have e2 : ridx_main_v0 (ix3 b t h) e = ix2 h e := funext fun a => Fin.ext (by
    match a with | ⟨0, _⟩ => rfl | ⟨1, _⟩ => rfl)
  rw [e1, e2]

theorem v1_at (b : Fin 1024) (t : Fin 256) (h : Fin 64) :
    val_main_v1 (F := Ideal) x0 x2 (ix3 b t h) = proj x0 x2 b t h := by
  rw [val_main_v1_apply]
  unfold proj
  refine Finset.sum_congr rfl fun e _ => ?_
  have e1 : lidx_main_v1 (ix3 b t h) e = ix3 b t e := funext fun a => Fin.ext (by
    match a with | ⟨0, _⟩ => rfl | ⟨1, _⟩ => rfl | ⟨2, _⟩ => rfl)
  have e2 : ridx_main_v1 (ix3 b t h) e = ix2 h e := funext fun a => Fin.ext (by
    match a with | ⟨0, _⟩ => rfl | ⟨1, _⟩ => rfl)
  rw [e1, e2]

theorem v2_at (b : Fin 1024) (t : Fin 256) (h : Fin 64) :
    val_main_v2 (F := Ideal) x0 x3 (ix3 b t h) = proj x0 x3 b t h := by
  rw [val_main_v2_apply]
  unfold proj
  refine Finset.sum_congr rfl fun e _ => ?_
  have e1 : lidx_main_v2 (ix3 b t h) e = ix3 b t e := funext fun a => Fin.ext (by
    match a with | ⟨0, _⟩ => rfl | ⟨1, _⟩ => rfl | ⟨2, _⟩ => rfl)
  have e2 : ridx_main_v2 (ix3 b t h) e = ix2 h e := funext fun a => Fin.ext (by
    match a with | ⟨0, _⟩ => rfl | ⟨1, _⟩ => rfl)
  rw [e1, e2]

/-- The scaled product of queries with keys is the score. -/
theorem v5_at (b : Fin 1024) (t s : Fin 256) :
    val_main_v5 (F := Ideal) x0 x1 x2 (ix3 b t s) = score (proj x0 x2 b) (proj x0 x1 b) t s := by
  rw [val_main_v5_apply, val_main_v3_apply, val_main_v4_apply, val_main_cst_apply]
  unfold score
  rw [Ideal.mulf_def]
  refine congrArg (· * eighth) (Finset.sum_congr rfl fun h _ => ?_)
  have e1 : lidx_main_v3 (ix3 b t s) h = ix3 b t h := funext fun a => Fin.ext (by
    match a with | ⟨0, _⟩ => rfl | ⟨1, _⟩ => rfl | ⟨2, _⟩ => rfl)
  have e2 : ridx_main_v3 (ix3 b t s) h = ix3 b s h := funext fun a => Fin.ext (by
    match a with | ⟨0, _⟩ => rfl | ⟨1, _⟩ => rfl | ⟨2, _⟩ => rfl)
  rw [e1, e2, v1_at, v0_at]

/-- The lower-triangular selection is the causal comparison of the two positions. -/
theorem v7_at (t s : Fin 256) : val_main_v7 (F := Ideal) (ix2 t s) = causalBit t s := by
  rw [val_main_v7_apply, val_main_v6_apply, val_main_c_apply, val_main_call0_v5_apply, val_main_call0_c_0_apply,
    select_one_zero, val_main_call0_v4_apply, val_main_call0_v2_apply, val_main_call0_v1_apply, val_main_call0_c_apply,
    addi_zero, val_main_call0_v0_apply, val_main_call0_v3_apply]
  rfl

/-- The masked score. -/
theorem v8_at (b : Fin 1024) (t s : Fin 256) :
    val_main_v8 (F := Ideal) x0 x1 x2 (ix3 b t s) = masked (proj x0 x2 b) (proj x0 x1 b) t s := by
  rw [val_main_v8_apply, val_main_call1_v1_apply, val_main_call1_v2_apply, val_main_call1_v0_apply, val_main_cst_0_apply, v5_at]
  have e1 : idx_main_call1_v1 (ix3 b t s) = ix2 t s := funext fun a => Fin.ext (by
    match a with | ⟨0, _⟩ => rfl | ⟨1, _⟩ => rfl)
  rw [e1, v7_at]
  rfl

/-- The maximum over the key position, from minus infinity, is the row's maximum. -/
theorem v9_at (b : Fin 1024) (t : Fin 256) :
    val_main_v9 (F := Ideal) x0 x1 x2 (ix2 b t) = rowMax (proj x0 x2 b) (proj x0 x1 b) t := by
  have hr : S1024x256x256.Reduces [2] S1024x256 := by decide
  unfold val_main_v9
  rw [Host.reduce_eq_fold_single FloatOps.maximumf _ _ reducesTo_S1024x256x256_S1024x256_d2 hr h_S_]
  unfold rowMax
  have hf : (val_main_v8 (F := Ideal) x0 x1 x2 ∘ hr.lift (ix2 b t))
      = fun s : Fin 256 => masked (proj x0 x2 b) (proj x0 x1 b) t s := funext fun s => by
    have e : hr.lift (ix2 b t) s = ix3 b t (⟨s.val, s.isLt⟩ : Fin 256) := funext fun a => Fin.ext (by
      match a with | ⟨0, _⟩ => rfl | ⟨1, _⟩ => rfl | ⟨2, _⟩ => rfl)
    show val_main_v8 (F := Ideal) x0 x1 x2 (hr.lift (ix2 b t) s) = _
    rw [e, v8_at]
    rfl
  exact congrArg (fun f => Finset.fold max negInf f (Finset.univ : Finset (Fin 256))) hf

/-- Taking the maximum with minus infinity once more changes nothing. -/
theorem v11_at (b : Fin 1024) (t : Fin 256) :
    val_main_v11 (F := Ideal) x0 x1 x2 (ix2 b t) = rowMax (proj x0 x2 b) (proj x0 x1 b) t := by
  rw [val_main_v11_apply, val_main_v10_apply, val_main_cst_2_apply, v9_at, Ideal.maximumf_def, Ideal.ofBits_def]
  show max negInf _ = _
  rw [negInf_eq_bot]
  exact max_bot_left _

/-- The row's maximum, broadcast along the key position. -/
theorem v13_at (b : Fin 1024) (t s : Fin 256) :
    val_main_v13 (F := Ideal) x0 x1 x2 (ix3 b t s) = rowMax (proj x0 x2 b) (proj x0 x1 b) t := by
  rw [val_main_v13_apply, val_main_v12_apply]
  have e : idx_main_v12 (idx_main_v13 (ix3 b t s)) = ix2 b t := funext fun a => Fin.ext (by
    match a with | ⟨0, _⟩ => rfl | ⟨1, _⟩ => rfl)
  rw [e, v11_at]

/-- The exponential of the masked score less the row's maximum. -/
theorem v15_at (b : Fin 1024) (t s : Fin 256) :
    val_main_v15 (F := Ideal) x0 x1 x2 (ix3 b t s) = expo (proj x0 x2 b) (proj x0 x1 b) t s := by
  rw [val_main_v15_apply, val_main_v14_apply, v8_at, v13_at, Ideal.hostUnary_exp_def, Ideal.subf_def]
  rfl

/-- The sum of the exponentials over the key position. -/
theorem v16_at (b : Fin 1024) (t : Fin 256) :
    val_main_v16 (F := Ideal) x0 x1 x2 (ix2 b t) = denom (proj x0 x2 b) (proj x0 x1 b) t := by
  rw [val_main_v16_apply, val_main_cst_3_apply, Ideal.ofBits_def, Ideal.ofBits_zero_f32, zero_add]
  unfold denom
  refine Finset.sum_congr rfl fun s _ => ?_
  have e : idx_main_v16 (ix2 b t) s = ix3 b t s := funext fun a => Fin.ext (by
    match a with | ⟨0, _⟩ => rfl | ⟨1, _⟩ => rfl | ⟨2, _⟩ => rfl)
  rw [e, v15_at]

/-- The sum, broadcast along the key position. -/
theorem v18_at (b : Fin 1024) (t s : Fin 256) :
    val_main_v18 (F := Ideal) x0 x1 x2 (ix3 b t s) = denom (proj x0 x2 b) (proj x0 x1 b) t := by
  rw [val_main_v18_apply, val_main_v17_apply]
  have e : idx_main_v17 (idx_main_v18 (ix3 b t s)) = ix2 b t := funext fun a => Fin.ext (by
    match a with | ⟨0, _⟩ => rfl | ⟨1, _⟩ => rfl)
  rw [e, v16_at]

/-- The quotient is the attention weight. -/
theorem v19_at (b : Fin 1024) (t s : Fin 256) :
    val_main_v19 (F := Ideal) x0 x1 x2 (ix3 b t s) = weight (proj x0 x2 b) (proj x0 x1 b) t s := by
  rw [val_main_v19_apply, v15_at, v18_at, Ideal.hostDivf_def]
  rfl

/-- The reference's result is the attention of the specification. -/
theorem result_is_attention (x0 : (⟨S1024x256x384, .f32⟩ : BufTy).Contents (Elt Ideal)) (x1 x2 x3 : (⟨S64x384, .f32⟩ : BufTy).Contents (Elt Ideal)) :
    Cert.ReferenceIdeal.Read.val_main_v20 (F := Ideal) x0 x1 x2 x3 = Cert.Attention.attn x0 x1 x2 x3 := by
  funext i
  obtain ⟨b, t, h, rfl⟩ : ∃ (b : Fin 1024) (t : Fin 256) (h : Fin 64), i = ix3 b t h := ⟨i 0, i 1, i 2, eq_ix3 i⟩
  rw [val_main_v20_apply]
  show _ = rowAttn (proj x0 x2 b) (proj x0 x1 b) (proj x0 x3 b) t h
  unfold rowAttn
  refine Finset.sum_congr rfl fun s _ => ?_
  have e1 : lidx_main_v20 (ix3 b t h) s = ix3 b t s := funext fun a => Fin.ext (by
    match a with | ⟨0, _⟩ => rfl | ⟨1, _⟩ => rfl | ⟨2, _⟩ => rfl)
  have e2 : ridx_main_v20 (ix3 b t h) s = ix3 b s h := funext fun a => Fin.ext (by
    match a with | ⟨0, _⟩ => rfl | ⟨1, _⟩ => rfl | ⟨2, _⟩ => rfl)
  rw [e1, e2, v19_at, v2_at]

end Cert.ReferenceIdeal.AsAttention

end
-- ==== Proof.lean ====
/-
  The certificate's five claims.

  The kernel computes causal single-head attention: per batch row, the query, key and value projections of the row's
  embedding matrix (through one fused weight matrix, the three weight matrices stacked and transposed on the host),
  the scores q·kᵀ scaled by 64^(-1/2) = ⅛, the causal mask, a softmax over each row — the exponentials of the masked
  scores less the row's maximum, divided by their sum — and the product with the values.  The reference computes the
  same with three separate projections and whole-array operations.

  Over the extended reals the two are one function of the four argument arrays, operation by operation
  (Proof/Attention.lean states it): the kernel's masking constant is named and denotes −∞, the reference's mask fills
  with the word of −∞; the reference's extra maximum with −∞ changes nothing; sums are the same sums (a matrix product
  into a zero accumulator against a contraction) and no law of the extended reals beyond that is used, so the
  precondition that the inputs are finite is never opened.

  The three programs' frames: the word-level kernel and its idealization by the launch library over a symbolic run of
  the body, its loop by the invariant "the trips before this one have stored their rows"; the reference's frame is its run
  with the result dropped.
-/
import proofs.«132341_j24850680774786_2_alg».proof.Defs
import proofs.«132341_j24850680774786_2_alg».proof.Proof.Gen.Kernel
import proofs.«132341_j24850680774786_2_alg».proof.Proof.Gen.KernelIdeal
import proofs.«132341_j24850680774786_2_alg».proof.Proof.Gen.ReferenceIdeal
import proofs.«132341_j24850680774786_2_alg».proof.Proof.Gen.ReferenceIdeal.Run
import proofs.«132341_j24850680774786_2_alg».proof.Proof.Gen.ReferenceIdeal.Read
import proofs.«132341_j24850680774786_2_alg».proof.Proof.Gen.Pre_finite_inputs
import proofs.«132341_j24850680774786_2_alg».proof.Proof.BitsFrame
import proofs.«132341_j24850680774786_2_alg».proof.Proof.IdealValue
import proofs.«132341_j24850680774786_2_alg».proof.Proof.RefIsAttention
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Launched.frame m ρ

/-- So does its idealization. -/
theorem frame_kernel_ideal : Cert.frame_KernelIdeal := fun m ρ _ => Cert.KernelIdeal.Launched.frame m ρ

/-- The reference is a straight line of host operations: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the masking constant −1e30 is named, and the name denotes −∞. -/
theorem preserves : Cert.preserves_Kernel_KernelIdeal :=
  IdealRules.named_const.statement Cert.KernelIdeal.κ "neg_big" .f32 0xF149F2CA#32 ⊥ rfl

/-- From memories agreeing on the arguments both idealized programs end with the result array at causal attention
    of the argument arrays. -/
theorem algebraic : Cert.algebraic_KernelIdeal_ReferenceIdeal := by
  intro m ρ m' ρ' _ hagree
  refine ⟨fun c => Cert.Attention.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Launched.run_attention m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.AsAttention.result_is_attention,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
